-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S16x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S16x2048x1024 : Shape := ⟨3, ![16, 2048, 1024]⟩
abbrev S1024x1024 : Shape := ⟨2, ![1024, 1024]⟩
abbrev S1024 : Shape := ⟨1, ![1024]⟩
abbrev S1x1024 : Shape := ⟨2, ![1, 1024]⟩
abbrev S32768x1024 : Shape := ⟨2, ![32768, 1024]⟩
abbrev S512x1024 : Shape := ⟨2, ![512, 1024]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 21
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S32768x1024, .f32⟩
  | .hbm, ⟨14, _⟩ => ⟨S32768x1024, .bf16⟩
  | .hbm, ⟨15, _⟩ => ⟨S32768x1024, .bf16⟩
  | .hbm, ⟨16, _⟩ => ⟨S32768x1024, .bf16⟩
  | .hbm, ⟨17, _⟩ => ⟨S16x2048x1024, .bf16⟩
  | .hbm, ⟨18, _⟩ => ⟨S16x2048x1024, .bf16⟩
  | .hbm, ⟨19, _⟩ => ⟨S16x2048x1024, .bf16⟩
  | .hbm, ⟨20, _⟩ => ⟨S16x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x512x1024, .f32⟩
  | .local _ .vmem, ⟨21, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  shapeCasts_S1024_S1x1024 : S1024.ShapeCasts S1x1024
  shapeCasts_S16x2048x1024_S32768x1024 : S16x2048x1024.ShapeCasts S32768x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S32768x1024_S16x2048x1024 : S32768x1024.ShapeCasts S16x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S32768x1024.size a
  hwx0_7 : ∀ i : grid0.Coords, EltTy.bits .bf16 = 32 ∨ (Rect.block (s := S32768x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S32768x1024.size a
  hwx0_8 : ∀ i : grid0.Coords, EltTy.bits .bf16 = 32 ∨ (Rect.block (s := S32768x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S32768x1024.size a
  hwx0_9 : ∀ i : grid0.Coords, EltTy.bits .bf16 = 32 ∨ (Rect.block (s := S32768x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S16x2048x1024.size a
  hwx1_0 : ∀ i : grid1.Coords, EltTy.bits .bf16 = 32 ∨ (Rect.block (s := S16x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S16x2048x1024.size a
  hwx1_1 : ∀ i : grid1.Coords, EltTy.bits .bf16 = 32 ∨ (Rect.block (s := S16x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S16x2048x1024.size a
  hwx1_2 : ∀ i : grid1.Coords, EltTy.bits .bf16 = 32 ∨ (Rect.block (s := S16x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S16x2048x1024.size a
  hwx1_3 : ∀ i : grid1.Coords, EltTy.bits .f32 = 32 ∨ (Rect.block (s := S16x2048x1024) S1x512x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v6) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v8) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x2048x2048 : Shape := ⟨3, ![16, 2048, 2048]⟩
abbrev S16x2048 : Shape := ⟨2, ![16, 2048]⟩
abbrev S16x2048x1 : Shape := ⟨3, ![16, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16x2048x1024, .f32⟩
  | .hbm, ⟨8, _⟩ => ⟨S1x1x1024, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S1x1x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x2048, .f32⟩
  | .hbm, ⟨28, _⟩ => ⟨S_, .f32⟩
  | .hbm, ⟨29, _⟩ => ⟨S16x2048, .f32⟩
  | .hbm, ⟨30, _⟩ => ⟨S16x2048, .f32⟩
  | .hbm, ⟨31, _⟩ => ⟨S16x2048x1, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S16x2048x2048, .f32⟩
  | .hbm, ⟨39, _⟩ => ⟨S16x2048x2048, .f32⟩
  | .hbm, ⟨40, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x1024_S1024x1024_S16x2048x1024_2_1_01_0_n_n_wf : DotDims.WF S16x2048x1024 S1024x1024 S16x2048x1024 [2] [1] [0, 1] [0] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.KRun.lean ====
/-
  The idealized kernel's run with its RESULT named: every weakly fair execution of the two-call program
  terminates without a fault, its argument arrays end as launched, and the result buffer ends holding the
  contents the last boundary of the program's segment chain assigns to it (`Gen.W4`): what the second call's
  write-backs leave in its output array.  The program is a chain of four segments (host operations, a call, host
  operations, a call); the launch theorem for such a chain ends with every unscoped buffer at the last boundary's
  contents, and the result buffer and the seven argument buffers are among them.
-/
import proofs.«123544_j5239860101728_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents. -/
theorem run_result : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Run

end
-- ==== Proof.LibSoftmaxMix.lean ====
/-
  Softmax-weighted mixtures of a row of values, and the one law about where the normalization sits.

  A row of logits z over a finite index set becomes positive weights  exp (z t - max z)  (the maximum folded from a
  starting value, as a reduction computes it); the weighted combination of a row of values v can be divided by the
  total weight AFTER combining,  (Σ_t w t · v t) / Σ_t w t,  or each weight can be divided by the total weight BEFORE
  combining,  Σ_t (w t / Σ w) · v t.  On the extended reals these differ at infinities; on a nonempty row of REAL
  logits and REAL values, folding the maximum from minus infinity, they agree: the maximum is then a real, every
  weight the exponential of a real, the total weight a positive real, division by it multiplication by its
  reciprocal, and the rest is distributivity of a finite real sum.  Also here: rows entering the logits through inner
  products and affine maps (`dot`, `lin`, `logit`), and that these send real rows to reals.
  Stated over arbitrary finite index types and for every row length.
-/
import Idealize.ShloMosaic.PureOps.Ideal

noncomputable section

namespace Cert.SoftmaxMix

open Idealize.ShloMosaic

section Rows

variable {ι κ μ : Type} [Fintype ι] [Fintype κ]

/-- The inner product of two rows. -/
def dot (u w : κ → EReal) : EReal := ∑ e, u e * w e

/-- One entry of an affine map: a row against row `o` of the weights, plus the bias at `o`. -/
def lin (u : κ → EReal) (W : μ → κ → EReal) (b : μ → EReal) (o : μ) : EReal := dot u (W o) + b o

/-- The scaled inner product of a query row with key row `t`. -/
def logit (q : κ → EReal) (k : ι → κ → EReal) (c : EReal) (t : ι) : EReal := dot q (k t) * c

/-- The largest entry of a row, folded from the starting value `lo`. -/
def peak (lo : EReal) (z : ι → EReal) : EReal := (Finset.univ : Finset ι).fold max lo z

/-- The positive weight of position `t`: the exponential of its distance below the row's largest entry. -/
def wgt (lo : EReal) (z : ι → EReal) (t : ι) : EReal := Ideal.exp (z t - peak lo z)

/-- The weighted combination of `v`, divided by the total weight AFTER combining. -/
def mixAfter (lo : EReal) (z v : ι → EReal) : EReal :=
  Ideal.div (∑ t, wgt lo z t * v t) (∑ t, wgt lo z t)

/-- The weighted combination of `v`, each weight divided by the total weight BEFORE combining. -/
def mixBefore (lo : EReal) (z v : ι → EReal) : EReal :=
  ∑ t, Ideal.div (wgt lo z t) (∑ t', wgt lo z t') * v t

/-! ### Finite sums of reals inside the extended reals -/

/-- The coercion of a finite real sum is the sum of the coercions. -/
theorem coe_sum {α : Type} (s : Finset α) (f : α → ℝ) :
    (∑ t ∈ s, (f t : EReal)) = ((∑ t ∈ s, f t : ℝ) : EReal) := by
  classical
  induction s using Finset.induction_on with
  | empty => simp
  | insert a s ha ih => rw [Finset.sum_insert ha, Finset.sum_insert ha, ih, EReal.coe_add]

/-- A finite sum of reals is a real. -/
theorem sum_real {α : Type} (s : Finset α) (f : α → EReal) (h : ∀ t, ∃ r : ℝ, f t = (r : EReal)) :
    ∃ r : ℝ, (∑ t ∈ s, f t) = (r : EReal) := by
  choose g hg using h
  exact ⟨∑ t ∈ s, g t, by simp only [hg]; exact coe_sum s g⟩

/-- The inner product of two real rows is a real. -/
theorem dot_real (u w : κ → EReal) (hu : ∀ e, ∃ r : ℝ, u e = (r : EReal))
    (hw : ∀ e, ∃ r : ℝ, w e = (r : EReal)) : ∃ r : ℝ, dot u w = (r : EReal) := by
  refine sum_real _ _ fun e => ?_
  obtain ⟨a, ha⟩ := hu e
  obtain ⟨b, hb⟩ := hw e
  exact ⟨a * b, by rw [ha, hb, EReal.coe_mul]⟩

/-- An affine map with real weights and bias sends a real row to a real row. -/
theorem lin_real (u : κ → EReal) (W : μ → κ → EReal) (b : μ → EReal)
    (hu : ∀ e, ∃ r : ℝ, u e = (r : EReal)) (hW : ∀ o e, ∃ r : ℝ, W o e = (r : EReal))
    (hb : ∀ o, ∃ r : ℝ, b o = (r : EReal)) (o : μ) : ∃ r : ℝ, lin u W b o = (r : EReal) := by
  obtain ⟨a, ha⟩ := dot_real u (W o) hu (hW o)
  obtain ⟨c, hc⟩ := hb o
  exact ⟨a + c, by rw [lin, ha, hc, EReal.coe_add]⟩

/-- A scaled inner product of real rows with a real scale is a real. -/
theorem logit_real (q : κ → EReal) (k : ι → κ → EReal) (c : EReal)
    (hq : ∀ e, ∃ r : ℝ, q e = (r : EReal)) (hk : ∀ t e, ∃ r : ℝ, k t e = (r : EReal))
    (hc : ∃ r : ℝ, c = (r : EReal)) (t : ι) : ∃ r : ℝ, logit q k c t = (r : EReal) := by
  obtain ⟨a, ha⟩ := dot_real q (k t) hq (hk t)
  obtain ⟨r, hr⟩ := hc
  exact ⟨a * r, by rw [logit, ha, hr, EReal.coe_mul]⟩

/-! ### The row law -/

/-- The largest entry of a nonempty real row, folded from the bottom element, is a real. -/
theorem peak_real [Nonempty ι] (z : ι → ℝ) :
    ∃ M : ℝ, peak ⊥ (fun t => (z t : EReal)) = (M : EReal) := by
  have hlt : peak ⊥ (fun t => (z t : EReal)) < ⊤ := by
    rw [peak, Finset.fold_max_lt]
    exact ⟨bot_lt_top, fun t _ => EReal.coe_lt_top (z t)⟩
  have hgt : ⊥ < peak ⊥ (fun t => (z t : EReal)) := by
    rw [peak, Finset.lt_fold_max]
    exact Or.inr ⟨Classical.arbitrary ι, Finset.mem_univ _, EReal.bot_lt_coe _⟩
  exact ⟨_, (EReal.coe_toReal hlt.ne hgt.ne').symm⟩

/-- On a nonempty row of real logits and real values, dividing the combination by the total weight
    equals combining with the divided weights. -/
theorem mixAfter_eq_mixBefore {ι : Type} [Fintype ι] [Nonempty ι] (z v : ι → ℝ) :
    mixAfter ⊥ (fun t => (z t : EReal)) (fun t => (v t : EReal)) = mixBefore ⊥ (fun t => (z t : EReal)) (fun t => (v t : EReal)) := by
  obtain ⟨M, hM⟩ := peak_real z
  -- every weight is the coercion of the positive real exp (z t - M)
  have hw : ∀ t, wgt ⊥ (fun t => (z t : EReal)) t = ((Real.exp (z t - M) : ℝ) : EReal) := by
    intro t
    rw [wgt, hM, ← EReal.coe_sub, Ideal.exp_coe]
  -- the total weight is a positive real
  have hl : (0 : ℝ) < ∑ t, Real.exp (z t - M) :=
    Finset.sum_pos (fun t _ => Real.exp_pos _) Finset.univ_nonempty
  have hl' : (∑ t, Real.exp (z t - M)) ≠ 0 := hl.ne'
  simp only [mixAfter, mixBefore, hw]
  rw [coe_sum]
  simp only [← EReal.coe_mul]
  rw [coe_sum, Ideal.div_coe hl', ← EReal.coe_mul]
  simp only [Ideal.div_coe hl', ← EReal.coe_mul]
  rw [coe_sum, Finset.sum_mul]
  congr 1
  exact Finset.sum_congr rfl fun t _ => by ring

end Rows

end Cert.SoftmaxMix

end
-- ==== Proof.Spec.lean ====
/-
  The mathematics both programs compute, stated once over plain coordinate functions.

  Single-head self-attention over a batch of 16 sequences of 2048 tokens with 1024 features:
  each token row is sent through three affine maps (queries, keys, values: a row against the rows of a weight
  matrix, plus a bias); a query row's scaled inner products with all 2048 key rows of its sequence are turned
  into positive weights `exp (z t - max z)`; the output row is the weighted combination of the value rows
  divided by the total weight.  The two programs differ only in WHERE the division by the total weight sits:
  after the combination (`mixAfter`) or on each weight before it (`mixBefore`).
-/
import Idealize.ShloMosaic.PureOps.Ideal
import proofs.«123544_j5239860101728_2_alg».proof.Proof.LibSoftmaxMix
import Idealize.ShloMosaic.Lib.ValueIdx

noncomputable section

namespace Cert.Attn

open Idealize.ShloMosaic Idealize.ShloMosaic.ValueIdx

-- the row-level vocabulary (inner product, affine map, logits, weights, the two mixtures) and its lemmas
export Cert.SoftmaxMix (dot lin logit peak wgt mixAfter mixBefore coe_sum sum_real dot_real lin_real logit_real peak_real
  mixAfter_eq_mixBefore)

/-- A [16, 2048, 1024] array, a [1024, 1024] matrix and a [1024] vector as functions of their coordinates. -/
abbrev A3 := Fin 16 → Fin 2048 → Fin 1024 → EReal
abbrev A2 := Fin 1024 → Fin 1024 → EReal
abbrev A1 := Fin 1024 → EReal

/-- An array of each of the three shapes read through its coordinates. -/
def c3 (X : (⟨3, ![16, 2048, 1024]⟩ : Shape).Idx → EReal) : A3 := fun b s e => X (ix3 b s e)
def c2 (X : (⟨2, ![1024, 1024]⟩ : Shape).Idx → EReal) : A2 := fun o e => X (ix2 o e)
def c1 (X : (⟨1, ![1024]⟩ : Shape).Idx → EReal) : A1 := fun o => X (ix1 o)

/-- The starting value of the row maximum: the f32 pattern of minus infinity. -/
def lo : EReal := Ideal.ofBits .f32 0xFF800000#32
/-- The scale as one program spells it: the f32 literal 0.03125. -/
def cK : EReal := Ideal.ofBits .f32 0x3D000000#32
/-- The scale as the other spells it: one over the square root of 1024. -/
def cR : EReal := Ideal.div (Ideal.ofBits .f32 0x3F800000#32) (Ideal.sqrt (Ideal.ofBits .f32 0x44800000#32))

/-- The logits of query token `s` of sequence `b` against every key token of that sequence. -/
def scores (x : A3) (Wq : A2) (bq : A1) (Wk : A2) (bk : A1) (c : EReal) (b : Fin 16) (s : Fin 2048) : Fin 2048 → EReal :=
  logit (lin (x b s) Wq bq) (fun t => lin (x b t) Wk bk) c

/-- Feature `d` of every value token of sequence `b`. -/
def values (x : A3) (Wv : A2) (bv : A1) (b : Fin 16) (d : Fin 1024) : Fin 2048 → EReal :=
  fun t => lin (x b t) Wv bv d

/-- Output entry (b, s, d), the total weight divided out after the combination. -/
def headAfter (x : A3) (Wq : A2) (bq : A1) (Wk : A2) (bk : A1) (Wv : A2) (bv : A1) (c lo : EReal)
    (b : Fin 16) (s : Fin 2048) (d : Fin 1024) : EReal :=
  mixAfter lo (scores x Wq bq Wk bk c b s) (values x Wv bv b d)

/-- Output entry (b, s, d), each weight divided by the total weight before the combination. -/
def headBefore (x : A3) (Wq : A2) (bq : A1) (Wk : A2) (bk : A1) (Wv : A2) (bv : A1) (c lo : EReal)
    (b : Fin 16) (s : Fin 2048) (d : Fin 1024) : EReal :=
  mixBefore lo (scores x Wq bq Wk bk c b s) (values x Wv bv b d)

end Cert.Attn

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibGatedMix.lean ====
/-
  A thresholded-logistic mixture of the rows of a small table, read one entry at a time at the exact
  (extended-real) values.

  x is an M×D array and W a T×D table.  Row p of x is scored against every row of W,
      s(p, t) = Σ_d x(p, d) · W(t, d),
  each score becomes a weight  g(s) = logistic(s),  replaced by z wherever logistic(s) < θ,  and the weighted
  rows of W are added back onto x:
      mix(x, W)(p, q) = x(p, q) + Σ_t g(s(p, t)) · W(t, q).
  Entry (p, q) sees x only through its row p.  So the mixture of a block of rows is the same block of the
  mixture of the whole array, and a computation done block of rows by block of rows agrees with one done whole.

  Two spellings of this function are identified with it, for every M, D, T:  the vector unit's (a product with the
  table contracted on its last axis into a zero accumulator, the logistic operation, a compare-and-select against
  splat scalars, a plain product into a zero accumulator, an add), and the host's (two dot_generals, the
  logistic spelt 1 / (1 + exp(−s)) over arrays that hold 1 everywhere, a compare-and-select against arrays that
  hold θ and z everywhere, an add).  Both products are plain finite sums over the extended reals and nothing here
  moves a factor across a sum, so no finiteness of the entries is used.
-/
import Idealize.ShloMosaic.Lib.ValueIdx
import Idealize.ShloMosaic.PureOps.Ideal.Laws
import proofs.«123544_j5239860101728_2_alg».proof.Proof.LibRowDot

noncomputable section

open scoped BigOperators

namespace Cert.GatedMix

open Idealize.ShloMosaic Idealize.ShloMosaic.ValueIdx Cert.RowDot

/-! ## A product with the right operand contracted on its last axis -/

/-- Entry t of (row · Wᵀ) for a T×D matrix W:  the sum over d of row(d) · W(t, d). -/
def rowDotT {D T : Nat} (row : Fin D → EReal) (W : (⟨2, ![T, D]⟩ : Shape).Idx → EReal) (t : Fin T) : EReal :=
  ∑ d : Fin D, row d * W (ix2 t d)

/-- The contraction shape of such a product is one axis. -/
theorem transposed_rank (M K N : Nat) : (DotDims.transposedRhs M K N).contr.rank = 1 := rfl

/-- The left operand's index at output index j keeps j's row. -/
theorem transposed_lhs0 {M K N : Nat} (j : (⟨2, ![M, N]⟩ : Shape).Idx) (u : (DotDims.transposedRhs M K N).contr.Idx) :
    ((DotDims.transposedRhs M K N).lhsIdx j u 0).val = (j 0).val := by
  unfold DotDims.lhsIdx
  rw [dif_neg (show ¬((0 : Fin (⟨2, ![M, K]⟩ : Shape).rank) ∈ (DotDims.transposedRhs M K N).lhsBatch) from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposed_lhs1 {M K N : Nat} (j : (⟨2, ![M, N]⟩ : Shape).Idx) (u : (DotDims.transposedRhs M K N).contr.Idx) :
    ((DotDims.transposedRhs M K N).lhsIdx j u 1).val = (u ⟨0, by rw [transposed_rank]; exact Nat.one_pos⟩).val :=
  (DotDims.transposedRhs M K N).lhsIdx_val_of_single rfl j u

/-- The right operand's row is j's column. -/
theorem transposed_rhs0 {M K N : Nat} (j : (⟨2, ![M, N]⟩ : Shape).Idx) (u : (DotDims.transposedRhs M K N).contr.Idx) :
    ((DotDims.transposedRhs M K N).rhsIdx j u 0).val = (j 1).val := by
  unfold DotDims.rhsIdx
  rw [dif_neg (show ¬((0 : Fin (⟨2, ![N, K]⟩ : Shape).rank) ∈ (DotDims.transposedRhs M K N).rhsBatch) from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposed_rhs1 {M K N : Nat} (j : (⟨2, ![M, N]⟩ : Shape).Idx) (u : (DotDims.transposedRhs M K N).contr.Idx) :
    ((DotDims.transposedRhs M K N).rhsIdx j u 1).val = (u ⟨0, by rw [transposed_rank]; exact Nat.one_pos⟩).val :=
  (DotDims.transposedRhs M K N).rhsIdx_val_of_single rfl j u

/-- The contraction's sum, re-indexed by k < K: row (j 0) of l against row (j 1) of r. -/
theorem transposed_contr_sum {M K N : Nat} (l : (⟨2, ![M, K]⟩ : Shape).Idx → EReal) (r : (⟨2, ![N, K]⟩ : Shape).Idx → EReal)
    (j : (⟨2, ![M, N]⟩ : Shape).Idx) :
    ∑ u : (DotDims.transposedRhs M K N).contr.Idx,
        l ((DotDims.transposedRhs M K N).lhsIdx j u) * r ((DotDims.transposedRhs M K N).rhsIdx j u)
      = rowDotT (rowOf l (j 0)) r (j 1) := by
  unfold rowDotT rowOf
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact transposed_lhs0 j _
      | ⟨1, _⟩ => exact (transposed_lhs1 j _).trans hk)
  have er : (DotDims.transposedRhs M K N).rhsIdx j ((contrEquiv1 (DotDims.transposedRhs M K N) K rfl rfl).symm k) = ix2 (j 1) k :=
    funext fun a => Fin.ext (by
      match a with
      | ⟨0, _⟩ => exact transposed_rhs0 j _
      | ⟨1, _⟩ => exact (transposed_rhs1 j _).trans hk)
  exact congrArg₂ (fun a b : EReal => a * b) (congrArg l el) (congrArg r er)

/-- The vector unit's product into the zero accumulator, at an entry. -/
theorem matmul_transposed_zero_apply {M K N : Nat} {φ₁ φ₂ : FTy} (prec : Option ContractPrecision)
    (lhs : FVec Ideal (⟨2, ![M, K]⟩ : Shape) φ₁) (rhs : FVec Ideal (⟨2, ![N, K]⟩ : Shape) φ₂) (j : (⟨2, ![M, N]⟩ : Shape).Idx) :
    FloatOps.matmul (DotDims.transposedRhs M K N) prec lhs rhs (constant (F := Ideal) (⟨2, ![M, N]⟩ : Shape) .f32 0x00000000#32) j
      = rowDotT (rowOf lhs (j 0)) rhs (j 1) := by
  rw [Ideal.matmul_constant_zero_apply]
  exact transposed_contr_sum lhs rhs j

/-- The host's dot_general, at an entry. -/
theorem dotGeneral_transposed_apply {M K N : Nat} {φ₁ φ₂ : FTy} (prec : Option ContractPrecision) (sched : HostSchedule)
    (lhs : FVec Ideal (⟨2, ![M, K]⟩ : Shape) φ₁) (rhs : FVec Ideal (⟨2, ![N, K]⟩ : Shape) φ₂) (j : (⟨2, ![M, N]⟩ : Shape).Idx) :
    FloatOps.dotGeneral (DotDims.transposedRhs M K N) prec sched lhs rhs j = rowDotT (rowOf lhs (j 0)) rhs (j 1) := by
  rw [Ideal.dotGeneral_apply]
  exact transposed_contr_sum lhs rhs j

/-! ## The mixture -/

/-- The weight of a score: its logistic, replaced by z where that is strictly below θ. -/
def gate (θ z s : EReal) : EReal :=
  Scalar.select (FloatOps.cmpf (F := Ideal) (φ := .f32) .olt (Ideal.logistic s) θ) z (Ideal.logistic s)

/-- One row of the mixture: the row plus the table's rows weighted by the gated scores of the row. -/
def mixRow {D T : Nat} (θ z : EReal) (row : Fin D → EReal) (W : (⟨2, ![T, D]⟩ : Shape).Idx → EReal) (q : Fin D) : EReal :=
  row q + ∑ t : Fin T, gate θ z (rowDotT row W t) * W (ix2 t q)

/-- The mixture of an M×D array with a T×D table: entry (p, q) is entry q of the mixture of row p. -/
def mix {M D T : Nat} (θ z : EReal) (x : (⟨2, ![M, D]⟩ : Shape).Idx → EReal) (W : (⟨2, ![T, D]⟩ : Shape).Idx → EReal) :
    (⟨2, ![M, D]⟩ : Shape).Idx → EReal :=
  fun j => mixRow θ z (rowOf x (j 0)) W (j 1)

/-- Entry (p, q) of the mixture depends on x through row p only: if row p' of x' is row p of x, the entries agree. -/
theorem mix_rows {M M' D T : Nat} (θ z : EReal) (x : (⟨2, ![M, D]⟩ : Shape).Idx → EReal) (x' : (⟨2, ![M', D]⟩ : Shape).Idx → EReal)
    (W : (⟨2, ![T, D]⟩ : Shape).Idx → EReal) (p : Fin M) (p' : Fin M') (q : Fin D)
    (h : ∀ d : Fin D, x' (ix2 p' d) = x (ix2 p d)) :
    mix θ z x' W (ix2 p' q) = mix θ z x W (ix2 p q) := by
  have hr : rowOf x' p' = rowOf x p := funext h
  show mixRow θ z (rowOf x' p') W q = mixRow θ z (rowOf x p) W q
  rw [hr]

/-- The same for whole indices: entry y of the mixture of x' is entry i of the mixture of x when row (y 0) of x' is row
    (i 0) of x and the two indices name the same column. -/
theorem mix_block {M M' D T : Nat} (θ z : EReal) (x : (⟨2, ![M, D]⟩ : Shape).Idx → EReal) (x' : (⟨2, ![M', D]⟩ : Shape).Idx → EReal)
    (W : (⟨2, ![T, D]⟩ : Shape).Idx → EReal) (y : (⟨2, ![M', D]⟩ : Shape).Idx) (i : (⟨2, ![M, D]⟩ : Shape).Idx)
    (hrow : ∀ d : Fin D, x' (ix2 (y 0) d) = x (ix2 (i 0) d)) (hcol : (i 1).val = (y 1).val) :
    mix θ z x' W y = mix θ z x W i := by
  have e0 : rowOf x' (y 0) = rowOf x (i 0) := funext hrow
  have e1 : (y 1 : Fin D) = (i 1 : Fin D) := Fin.ext hcol.symm
  show mixRow θ z (rowOf x' (y 0)) W (y 1) = mixRow θ z (rowOf x (i 0)) W (i 1)
  exact congrArg₂ (fun (r : Fin D → EReal) (q : Fin D) => mixRow θ z r W q) e0 e1

/-! ## The vector unit's spelling -/

/-- A product contracted on the table's last axis into zero, the logistic, the compare-and-select against two splat
    scalars, a plain product with the table into zero, and the add: the mixture, with θ and z the two words' values. -/
theorem vector_form {M D T : Nat} (p₁ p₂ : Option ContractPrecision) (θw zw : BitVec 32)
    (x : FVec Ideal (⟨2, ![M, D]⟩ : Shape) .f32) (W : FVec Ideal (⟨2, ![T, D]⟩ : Shape) .f32) :
    addf x (matmul (DotDims.plain M T D) p₂
        (select
          (cmpf .olt
            (logistic (matmul (DotDims.transposedRhs M D T) p₁ x W (constant (⟨2, ![M, T]⟩ : Shape) .f32 0x00000000#32)))
            (broadcast (⟨2, ![M, T]⟩ : Shape) (Scalar.ofBits (F := Ideal) .f32 θw)))
          (broadcast (⟨2, ![M, T]⟩ : Shape) (Scalar.ofBits (F := Ideal) .f32 zw))
          (logistic (matmul (DotDims.transposedRhs M D T) p₁ x W (constant (⟨2, ![M, T]⟩ : Shape) .f32 0x00000000#32))))
        W (constant (⟨2, ![M, D]⟩ : Shape) .f32 0x00000000#32))
      = mix (Ideal.ofBits .f32 θw) (Ideal.ofBits .f32 zw) x W := by
  funext j
  obtain ⟨p, q, rfl⟩ : ∃ (p : Fin M) (q : Fin D), j = ix2 p q := ⟨j 0, j 1, eq_ix2 j⟩
  rw [addf_apply]
  refine congrArg (x (ix2 p q) + ·) ?_
  refine (matmul_plain_zero_apply p₂ _ W (ix2 p q)).trans ?_
  refine Finset.sum_congr rfl fun t _ => ?_
  refine congrArg (· * W (ix2 t q)) ?_
  show Scalar.select (FloatOps.cmpf .olt (Ideal.logistic (FloatOps.matmul (DotDims.transposedRhs M D T) p₁ x W
      (constant (F := Ideal) (⟨2, ![M, T]⟩ : Shape) .f32 0x00000000#32) (ix2 p t))) (Ideal.ofBits .f32 θw)) (Ideal.ofBits .f32 zw)
      (Ideal.logistic (FloatOps.matmul (DotDims.transposedRhs M D T) p₁ x W
      (constant (F := Ideal) (⟨2, ![M, T]⟩ : Shape) .f32 0x00000000#32) (ix2 p t))) = _
  rw [matmul_transposed_zero_apply]
  rfl

/-! ## The host's spelling -/

/-- The f32 word of 1.0 is the number 1. -/
theorem one_word : Ideal.ofBits .f32 0x3F800000#32 = 1 := by
  simp [Ideal.ofBits, Ideal.ieee, -EReal.coe_mul]; norm_num

/-- Two dot_generals, the logistic spelt 1 / (1 + exp(−s)) over arrays that are 1 everywhere, the compare-and-select
    against arrays that are θ and z everywhere, and the add: the mixture. -/
theorem host_form {M D T : Nat} (p₁ p₂ : Option ContractPrecision) (θ z : EReal)
    (x : FVec Ideal (⟨2, ![M, D]⟩ : Shape) .f32) (W : FVec Ideal (⟨2, ![T, D]⟩ : Shape) .f32)
    (one one' θv zv : FVec Ideal (⟨2, ![M, T]⟩ : Shape) .f32)
    (h1 : ∀ i, one i = 1) (h1' : ∀ i, one' i = 1) (hθ : ∀ i, θv i = θ) (hz : ∀ i, zv i = z) :
    addf x (Host.dotGeneral (DotDims.plain M T D) p₂
        (select
          (cmpf .olt
            (Host.divf one (addf one' (Host.exp (Host.negf (Host.dotGeneral (DotDims.transposedRhs M D T) p₁ x W)))))
            θv)
          zv
          (Host.divf one (addf one' (Host.exp (Host.negf (Host.dotGeneral (DotDims.transposedRhs M D T) p₁ x W))))))
        W)
      = mix θ z x W := by
  funext j
  obtain ⟨p, q, rfl⟩ : ∃ (p : Fin M) (q : Fin D), j = ix2 p q := ⟨j 0, j 1, eq_ix2 j⟩
  rw [addf_apply]
  refine congrArg (x (ix2 p q) + ·) ?_
  refine (dotGeneral_plain_apply p₂ .single _ W (ix2 p q)).trans ?_
  refine Finset.sum_congr rfl fun t _ => ?_
  refine congrArg (· * W (ix2 t q)) ?_
  show Scalar.select (FloatOps.cmpf .olt
      (FloatOps.hostDivf (one (ix2 p t)) (FloatOps.addf (one' (ix2 p t)) (FloatOps.hostUnary .exp (FloatOps.hostNegf
        (FloatOps.dotGeneral (DotDims.transposedRhs M D T) p₁ .single x W (ix2 p t))))))
      (θv (ix2 p t))) (zv (ix2 p t))
      (FloatOps.hostDivf (one (ix2 p t)) (FloatOps.addf (one' (ix2 p t)) (FloatOps.hostUnary .exp (FloatOps.hostNegf
        (FloatOps.dotGeneral (DotDims.transposedRhs M D T) p₁ .single x W (ix2 p t)))))) = _
  rw [dotGeneral_transposed_apply, h1, h1', hθ, hz]
  rfl

end Cert.GatedMix

end
-- ==== Proof.AttnBlock.lean ====
/-
  The second call's body at one entry.

  A grid point of the second call sees one block of 512 query rows (a [1, 512, 1024] block) and all 2048 key rows
  and value rows of the same sequence (two [1, 2048, 1024] blocks).  Row r of what it stores is: the scaled inner
  products of query row r with every key row, turned into weights exp (z t - max z), the weighted combination of the
  value rows, divided by the total weight — the specification's `mixAfter` of that row's logits and of one column of
  the values.  The body is read here piece by piece: the logits, the row maximum, the weights, the total weight, the
  combination, the quotient.
-/
import proofs.«123544_j5239860101728_2_alg».proof.Proof.Gen.KernelIdeal.Skeleton
import proofs.«123544_j5239860101728_2_alg».proof.Proof.Spec
import proofs.«123544_j5239860101728_2_alg».proof.Proof.LibColumn
import proofs.«123544_j5239860101728_2_alg».proof.Proof.LibRowDot
import proofs.«123544_j5239860101728_2_alg».proof.Proof.LibGatedMix
import Idealize.ShloMosaic.Lib.Pipeline.Value
import Idealize.ShloMosaic.Lib.ValueIdx
import Idealize.ShloMosaic.PureOps.Ideal.Laws

noncomputable section

namespace Cert.Attn

open Cert.KernelIdeal Cert.KernelIdeal.Gen
open Idealize.ShloMosaic Idealize.ShloMosaic.ValueIdx Idealize.SL.Sem

/-! ## The body's pieces, named -/

/-- The query block and a key / value block with the unit axis dropped. -/
def rows512 (x0 : Vec Ideal S1x512x1024 .bf16) : FVec Ideal S512x1024 .bf16 :=
  shapeCast S512x1024 x0 shapeCasts_S1x512x1024_S512x1024
def rows2048 (x1 : Vec Ideal S1x2048x1024 .bf16) : FVec Ideal S2048x1024 .bf16 :=
  shapeCast S2048x1024 x1 shapeCasts_S1x2048x1024_S2048x1024

/-- The scaled logits of the block's 512 query rows against the 2048 key rows. -/
def blkLogits (x0 : Vec Ideal S1x512x1024 .bf16) (x1 : Vec Ideal S1x2048x1024 .bf16) : FVec Ideal S512x2048 .f32 :=
  mulf (matmul dot_S512x1024_S2048x1024_S512x2048_1_1_0_0_n_n none (rows512 x0) (rows2048 x1) (constant S512x2048 .f32 0x00000000#32))
    (broadcast S512x2048 (Scalar.ofBits .f32 0x3D000000#32))

/-- Each row's largest logit. -/
def blkPeak (x0 : Vec Ideal S1x512x1024 .bf16) (x1 : Vec Ideal S1x2048x1024 .bf16) : FVec Ideal S512 .f32 :=
  multiReduction .maximumf [1] S512 (blkLogits x0 x1) 0xFF800000#32 reduces_S512x2048_S512 (.inl rfl) rfl

/-- The weights. -/
def blkWgt (x0 : Vec Ideal S1x512x1024 .bf16) (x1 : Vec Ideal S1x2048x1024 .bf16) : FVec Ideal S512x2048 .f32 :=
  exp (subf (blkLogits x0 x1) (broadcastTo S512x2048 (shapeCast S512x1 (blkPeak x0 x1) shapeCasts_S512_S512x1) broadcasts_S512x1_S512x2048))

/-- Each row's total weight. -/
def blkTotal (x0 : Vec Ideal S1x512x1024 .bf16) (x1 : Vec Ideal S1x2048x1024 .bf16) : FVec Ideal S512 .f32 :=
  multiReduction .add [1] S512 (blkWgt x0 x1) 0x00000000#32 reduces_S512x2048_S512 (.inl rfl) rfl

/-- The weighted combination of the value rows. -/
def blkMix (x0 : Vec Ideal S1x512x1024 .bf16) (x1 x2 : Vec Ideal S1x2048x1024 .bf16) : FVec Ideal S512x1024 .f32 :=
  matmul dot_S512x2048_S2048x1024_S512x1024_1_0_0_1_n_n none (truncf .bf16 (blkWgt x0 x1) bitsLt_bf16_f32) (rows2048 x2)
    (constant S512x1024 .f32 0x00000000#32)

/-- The stored block is the combination over the total weight, with the unit axis put back. -/
theorem pay_eq (x0 : Vec Ideal S1x512x1024 .bf16) (x1 x2 : Vec Ideal S1x2048x1024 .bf16) :
    k1_pay1 (F := Ideal) x0 x1 x2
      = shapeCast S1x512x1024 (divf (blkMix x0 x1 x2)
          (broadcastTo S512x1024 (shapeCast S512x1 (blkTotal x0 x1) shapeCasts_S512_S512x1) broadcasts_S512x1_S512x1024))
          shapeCasts_S512x1024_S1x512x1024 := rfl

/-! ## Each piece at an index -/

theorem rows512_apply (x0 : Vec Ideal S1x512x1024 .bf16) (r : Fin 512) (e : Fin 1024) :
    rows512 x0 (ix2 r e) = x0 (ix3 (0 : Fin 1) r e) :=
  (shapeCast_dropUnit_apply ![512, 1024] x0 shapeCasts_S1x512x1024_S512x1024 (ix2 r e)).trans
    (congrArg x0 (funext fun a => by match a with | ⟨0, _⟩ => rfl | ⟨1, _⟩ => rfl | ⟨2, _⟩ => rfl))

theorem rows2048_apply (x1 : Vec Ideal S1x2048x1024 .bf16) (t : Fin 2048) (e : Fin 1024) :
    rows2048 x1 (ix2 t e) = x1 (ix3 (0 : Fin 1) t e) :=
  (shapeCast_dropUnit_apply ![2048, 1024] x1 shapeCasts_S1x2048x1024_S2048x1024 (ix2 t e)).trans
    (congrArg x1 (funext fun a => by match a with | ⟨0, _⟩ => rfl | ⟨1, _⟩ => rfl | ⟨2, _⟩ => rfl))

/-- The logits of row r. -/
def rowLogits (x0 : Vec Ideal S1x512x1024 .bf16) (x1 : Vec Ideal S1x2048x1024 .bf16) (r : Fin 512) : Fin 2048 → EReal :=
  logit (fun e => x0 (ix3 (0 : Fin 1) r e)) (fun t e => x1 (ix3 (0 : Fin 1) t e)) cK

theorem blkLogits_apply (x0 : Vec Ideal S1x512x1024 .bf16) (x1 : Vec Ideal S1x2048x1024 .bf16) (r : Fin 512) (t : Fin 2048) :
    blkLogits x0 x1 (ix2 r t) = rowLogits x0 x1 r t := by
  show FloatOps.matmul (DotDims.transposedRhs 512 1024 2048) none (rows512 x0) (rows2048 x1)
      (constant (F := Ideal) (⟨2, ![512, 2048]⟩ : Shape) .f32 0x00000000#32) (ix2 r t) * Ideal.ofBits .f32 0x3D000000#32 = _
  rw [Cert.GatedMix.matmul_transposed_zero_apply]
  unfold Cert.GatedMix.rowDotT Cert.RowDot.rowOf rowLogits logit dot cK
  refine congrArg (· * Ideal.ofBits .f32 0x3D000000#32) (Finset.sum_congr rfl fun e _ => ?_)
  show rows512 x0 (ix2 r e) * rows2048 x1 (ix2 t e) = _
  rw [rows512_apply, rows2048_apply]

theorem blkPeak_apply (x0 : Vec Ideal S1x512x1024 .bf16) (x1 : Vec Ideal S1x2048x1024 .bf16) (r : Fin 512) :
    blkPeak x0 x1 (ix1 r) = peak lo (rowLogits x0 x1 r) := by
  unfold blkPeak
  refine (Ideal.multiReduction_maximumf_single (blkLogits x0 x1) 0xFF800000#32 reduces_S512x2048_S512 (.inl rfl) rfl (ix1 r)).trans ?_
  show (Finset.univ : Finset (Fin 2048)).fold max (Ideal.ofBits .f32 0xFF800000#32) (fun t => blkLogits x0 x1 (ix2 r t)) = _
  unfold peak lo
  exact congrArg (fun f : Fin 2048 → EReal => (Finset.univ : Finset (Fin 2048)).fold max (Ideal.ofBits .f32 0xFF800000#32) f)
    (funext fun t => blkLogits_apply x0 x1 r t)

theorem blkWgt_apply (x0 : Vec Ideal S1x512x1024 .bf16) (x1 : Vec Ideal S1x2048x1024 .bf16) (r : Fin 512) (t : Fin 2048) :
    blkWgt x0 x1 (ix2 r t) = wgt lo (rowLogits x0 x1 r) t := by
  show Ideal.exp (blkLogits x0 x1 (ix2 r t)
      - broadcastTo S512x2048 (shapeCast S512x1 (blkPeak x0 x1) shapeCasts_S512_S512x1) broadcasts_S512x1_S512x2048 (ix2 r t)) = _
  rw [Cert.Column.broadcastTo_a1_ab_apply, Cert.Column.shapeCast_a_a1_apply, blkLogits_apply, blkPeak_apply]
  rfl

theorem blkTotal_apply (x0 : Vec Ideal S1x512x1024 .bf16) (x1 : Vec Ideal S1x2048x1024 .bf16) (r : Fin 512) :
    blkTotal x0 x1 (ix1 r) = ∑ t : Fin 2048, wgt lo (rowLogits x0 x1 r) t := by
  unfold blkTotal
  refine (Ideal.multiReduction_add_single (blkWgt x0 x1) 0x00000000#32 reduces_S512x2048_S512 (.inl rfl) rfl (ix1 r)).trans ?_
  show ∑ t : Fin 2048, blkWgt x0 x1 (ix2 r t) = _
  exact Finset.sum_congr rfl fun t _ => blkWgt_apply x0 x1 r t

theorem blkMix_apply (x0 : Vec Ideal S1x512x1024 .bf16) (x1 x2 : Vec Ideal S1x2048x1024 .bf16) (r : Fin 512) (d : Fin 1024) :
    blkMix x0 x1 x2 (ix2 r d) = ∑ t : Fin 2048, wgt lo (rowLogits x0 x1 r) t * x2 (ix3 (0 : Fin 1) t d) := by
  show FloatOps.matmul (DotDims.plain 512 2048 1024) none (truncf .bf16 (blkWgt x0 x1) bitsLt_bf16_f32) (rows2048 x2)
      (constant (F := Ideal) (⟨2, ![512, 1024]⟩ : Shape) .f32 0x00000000#32) (ix2 r d) = _
  rw [Cert.RowDot.matmul_plain_zero_apply]
  unfold Cert.RowDot.rowDot Cert.RowDot.rowOf
  refine Finset.sum_congr rfl fun t _ => ?_
  show blkWgt x0 x1 (ix2 r t) * rows2048 x2 (ix2 t d) = _
  rw [blkWgt_apply, rows2048_apply]

/-- THE BODY AT AN ENTRY: row r, feature d of the stored block is the specification's normalize-after mixture of row
    r's logits and column d of the values. -/
theorem attn_payload (x0 : Vec Ideal S1x512x1024 .bf16) (x1 x2 : Vec Ideal S1x2048x1024 .bf16) (r : Fin 512) (d : Fin 1024) :
    k1_pay1 (F := Ideal) x0 x1 x2 (ix3 (0 : Fin 1) r d)
      = mixAfter lo (rowLogits x0 x1 r) (fun t => x2 (ix3 (0 : Fin 1) t d)) := by
  rw [pay_eq]
  refine (shapeCast_addUnit_apply ![512, 1024] _ shapeCasts_S512x1024_S1x512x1024 (ix3 (0 : Fin 1) r d)).trans ?_
  have hj : (fun a : Fin 2 => (ix3 (0 : Fin 1) r d : (⟨3, ![1, 512, 1024]⟩ : Shape).Idx) a.succ) = ix2 r d :=
    funext fun a => by match a with | ⟨0, _⟩ => rfl | ⟨1, _⟩ => rfl
  rw [hj]
  show Ideal.div (blkMix x0 x1 x2 (ix2 r d))
      (broadcastTo S512x1024 (shapeCast S512x1 (blkTotal x0 x1) shapeCasts_S512_S512x1) broadcasts_S512x1_S512x1024 (ix2 r d)) = _
  rw [Cert.Column.broadcastTo_a1_ab_apply, Cert.Column.shapeCast_a_a1_apply, blkMix_apply, blkTotal_apply]
  rfl

end Cert.Attn

end
-- ==== Proof.AttnArray.lean ====
/-
  The second call's result array as one function of its three input arrays.

  Grid point (b, g) of the second call reads query rows 512 g … 512 g + 511 of sequence b and every key and value row
  of sequence b, and writes back rows 512 g … 512 g + 511 of sequence b of the result.  The 16 × 4 blocks tile the
  [16, 2048, 1024] result, and what each point writes is the matching block of ONE function of the three arrays:
  entry (b, s, d) is the normalize-after mixture of the logits of query row (b, s) against the keys of sequence b and
  of column d of the values of sequence b.  Stated for any contents the call may find on entry.
-/
import proofs.«123544_j5239860101728_2_alg».proof.Proof.Gen.KernelIdeal.Frame
import proofs.«123544_j5239860101728_2_alg».proof.Proof.AttnBlock
import Idealize.ShloMosaic.Lib.Pipeline.Value

set_option maxRecDepth 16384

noncomputable section

namespace Cert.Attn

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The mixture depends on its rows only through their entries. -/
theorem mixAfter_congr {ι κ : Type} [Fintype ι] [Fintype κ] {q q' : κ → EReal} {k k' : ι → κ → EReal} {v v' : ι → EReal}
    (hq : ∀ e, q e = q' e) (hk : ∀ t e, k t e = k' t e) (hv : ∀ t, v t = v' t) (c l : EReal) :
    mixAfter l (logit q k c) v = mixAfter l (logit q' k' c) v' := by
  obtain rfl : q = q' := funext hq
  obtain rfl : k = k' := funext fun t => funext (hk t)
  obtain rfl : v = v' := funext hv
  rfl

/-- Attention of three [16, 2048, 1024] arrays (queries, keys, values), entry by entry. -/
def attnOf (Q K W : S16x2048x1024.Idx → EReal) : S16x2048x1024.Idx → EReal := fun i =>
  mixAfter lo (logit (fun e : Fin 1024 => Q (ix3 (i 0) (i 1) e)) (fun (t : Fin 2048) (e : Fin 1024) => K (ix3 (i 0) t e)) cK)
    (fun t : Fin 2048 => W (ix3 (i 0) t (i 2)))

/-- The printed index maps over the grid: the query and result blocks move together along both grid axes, the key
    and value blocks follow the first axis only, and the block indices stay in range. -/
theorem idx_facts1 : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (2 : Fin 3) = 0 ∧ win1_3.index t (0 : Fin 3) < 16 ∧ win1_3.index t (1 : Fin 3) < 4 :=
  (by decide +kernel : ∀ t : Fin grid1.N, _)

/-- Every block of the result is some point's. -/
theorem idx_onto1 : ∀ (q0 : Fin 16) (q1 : Fin 4), ∃ t : Fin cfg1.N, win1_3.index t = ![q0.val, q1.val, 0] :=
  (by decide +kernel : ∀ (q0 : Fin 16) (q1 : Fin 4), ∃ t : Fin grid1.N, win1_3.index t = ![q0.val, q1.val, 0])

/-- WHAT POINT t WRITES BACK is block t of the attention of the three arrays as the call finds them. -/
theorem flushed1 (c : Dev nD) (t : Fin cfg1.N) :
    (dat1 (F := Ideal) V c).flushed 3 t
      = ((cfg1.win 3).blk t).view.read (Elt Ideal) (attnOf (V c main_v8) (V c main_v9) (V c main_v10)) := by
  show (cfg1.win 3).cut (grid1.coords t) ((dat1 (F := Ideal) V c).after 3 t) = _
  rw [after1_3]
  unfold out1_3
  rw [View.canon_unit_zero hz3]
  simp only [View.ld_unit_zero (S := S1x512x1024) hz3, View.ld_unit_zero (S := S1x2048x1024) hz3]
  obtain ⟨e00, e01, e02, e10, e11, e12, e20, e21, e22, e32, b0, b1⟩ := idx_facts1 t
  refine funext fun (j : S1x512x1024.Idx) => ?_
  obtain ⟨u, r, d, rfl⟩ : ∃ (u : Fin 1) (r : Fin 512) (d : Fin 1024), j = ix3 u r d := ⟨j 0, j 1, j 2, eq_ix3 j⟩
  obtain rfl : u = (0 : Fin 1) := Subsingleton.elim _ _
  refine (attn_payload (iblk1 V c 0 t) (iblk1 V c 1 t) (iblk1 V c 2 t) r d).trans ?_
  show _ = attnOf (V c main_v8) (V c main_v9) (V c main_v10) (((cfg1.win 3).blk t).view.emb (ix3 (0 : Fin 1) r d))
  unfold attnOf rowLogits
  refine mixAfter_congr (fun e => ?_) (fun t' e => ?_) (fun t' => ?_) cK lo
  · show V c main_v8 (((cfg1.win 0).blk t).view.emb (ix3 (0 : Fin 1) r e)) = _
    refine congrArg (V c main_v8) (funext fun a => Fin.ext ?_)
    match a with
    | ⟨0, _⟩ => show win1_0.index t (0 : Fin 3) * 1 + 1 * 0 = win1_3.index t (0 : Fin 3) * 1 + 1 * 0; omega
    | ⟨1, _⟩ => show win1_0.index t (1 : Fin 3) * 512 + 1 * r.val = win1_3.index t (1 : Fin 3) * 512 + 1 * r.val; omega
    | ⟨2, _⟩ => show win1_0.index t (2 : Fin 3) * 1024 + 1 * e.val = e.val; omega
  · show V c main_v9 (((cfg1.win 1).blk t).view.emb (ix3 (0 : Fin 1) t' e)) = _
    refine congrArg (V c main_v9) (funext fun a => Fin.ext ?_)
    match a with
    | ⟨0, _⟩ => show win1_1.index t (0 : Fin 3) * 1 + 1 * 0 = win1_3.index t (0 : Fin 3) * 1 + 1 * 0; omega
    | ⟨1, _⟩ => show win1_1.index t (1 : Fin 3) * 2048 + 1 * t'.val = t'.val; omega
    | ⟨2, _⟩ => show win1_1.index t (2 : Fin 3) * 1024 + 1 * e.val = e.val; omega
  · show V c main_v10 (((cfg1.win 2).blk t).view.emb (ix3 (0 : Fin 1) t' d)) = _
    refine congrArg (V c main_v10) (funext fun a => Fin.ext ?_)
    match a with
    | ⟨0, _⟩ => show win1_2.index t (0 : Fin 3) * 1 + 1 * 0 = win1_3.index t (0 : Fin 3) * 1 + 1 * 0; omega
    | ⟨1, _⟩ => show win1_2.index t (1 : Fin 3) * 2048 + 1 * t'.val = t'.val; omega
    | ⟨2, _⟩ => show win1_2.index t (2 : Fin 3) * 1024 + 1 * d.val = win1_3.index t (2 : Fin 3) * 1024 + 1 * d.val; omega

/-- An index of the result is in point t's block iff each coordinate is in the block's range on its axis. -/
theorem mem_blk1 (t : Fin cfg1.N) (i : S16x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v11).slice (win1_3.rect t)).set ↔ _
  rw [View.set_slice_whole, Rect.mem_set_unit]
  exact Iff.rfl

/-- The 64 blocks cover the result. -/
theorem cover1 (i : S16x2048x1024.Idx) :
    ∃ t : Fin cfg1.N, (cfg1.win 3).flush t = true ∧ i ∈ ((cfg1.win 3).blk t).view.set := by
  have hi0 : (i 0).val < 16 := (i 0).isLt
  have hi1 : (i 1).val < 2048 := (i 1).isLt
  have hi2 : (i 2).val < 1024 := (i 2).isLt
  obtain ⟨t, ht⟩ := idx_onto1 ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, (mem_blk1 t i).mpr fun a => ?_⟩
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- THE RESULT ARRAY after the second call: the attention of the three arrays it found on entry. -/
theorem region1_value (c : Dev nD) :
    (dat1 (F := Ideal) V c).arrAt 3 cfg1.N = attnOf (V c main_v8) (V c main_v9) (V c main_v10) :=
  (dat1 (F := Ideal) V c).arrAt_eq_of_cover 3 _ (fun t _ => flushed1 V c t) (cover1)

end Cert.Attn

end
-- ==== Proof.ProjBlock.lean ====
/-
  The first call's body at one entry.

  A grid point of the first call sees a block of 512 token rows (a [512, 1024] block of the flattened input), the
  three whole weight matrices and the three biases as [1, 1024] rows.  Each of its three stored blocks is, at row r
  and output feature o, the inner product of token row r with row o of one weight matrix, plus that bias at o: the
  specification's `lin`.  The three stores are one function of (tokens, weights, bias) applied to the three pairs.
-/
import proofs.«123544_j5239860101728_2_alg».proof.Proof.Gen.KernelIdeal.Skeleton
import proofs.«123544_j5239860101728_2_alg».proof.Proof.Spec
import proofs.«123544_j5239860101728_2_alg».proof.Proof.LibRowDot
import proofs.«123544_j5239860101728_2_alg».proof.Proof.LibGatedMix
import Idealize.ShloMosaic.Lib.Pipeline.Value
import Idealize.ShloMosaic.Lib.ValueIdx
import Idealize.ShloMosaic.Lib.ValueLayout
import Idealize.ShloMosaic.PureOps.Ideal.Laws

noncomputable section

namespace Cert.Attn

open Cert.KernelIdeal Cert.KernelIdeal.Gen
open Idealize.ShloMosaic Idealize.ShloMosaic.ValueIdx Idealize.SL.Sem

/-- The block's token rows as the matrix unit takes them (a change of float format, the identity on values). -/
theorem tokens_apply (v0 : Vec Ideal S512x1024 .f32) (i : S512x1024.Idx) : k0_pay1 (F := Ideal) v0 i = v0 i := by
  show shapeCast S512x1024 v0 shapeCasts_S512x1024_S512x1024 i = v0 i
  rw [shapeCast_self]

/-- One stored block as a function of the token block, one weight matrix and one bias row. -/
def projBlock (v0 : Vec Ideal S512x1024 .f32) (w : Vec Ideal S1024x1024 .bf16) (b : Vec Ideal S1x1024 .f32) : FVec Ideal S512x1024 .bf16 :=
  k0_pay2 (F := Ideal) v0 w b

theorem pay2_eq (v0 : Vec Ideal S512x1024 .f32) (w : Vec Ideal S1024x1024 .bf16) (b : Vec Ideal S1x1024 .f32) :
    k0_pay2 (F := Ideal) v0 w b = projBlock v0 w b := rfl
theorem pay3_eq (v0 : Vec Ideal S512x1024 .f32) (w : Vec Ideal S1024x1024 .bf16) (b : Vec Ideal S1x1024 .f32) :
    k0_pay3 (F := Ideal) v0 w b = projBlock v0 w b := rfl
theorem pay4_eq (v0 : Vec Ideal S512x1024 .f32) (w : Vec Ideal S1024x1024 .bf16) (b : Vec Ideal S1x1024 .f32) :
    k0_pay4 (F := Ideal) v0 w b = projBlock v0 w b := rfl

/-- THE BODY AT AN ENTRY: row r, feature o of a stored block is the affine map of token row r at o. -/
theorem projBlock_apply (v0 : Vec Ideal S512x1024 .f32) (w : Vec Ideal S1024x1024 .bf16) (b : Vec Ideal S1x1024 .f32)
    (r : Fin 512) (o : Fin 1024) :
    projBlock v0 w b (ix2 r o)
      = lin (fun e => v0 (ix2 r e)) (fun o' e => w (ix2 o' e)) (fun o' => b (ix2 (0 : Fin 1) o')) o := by
  show FloatOps.matmul (DotDims.transposedRhs 512 1024 1024) none (k0_pay1 (F := Ideal) v0)
        (shapeCast S1024x1024 w shapeCasts_S1024x1024_S1024x1024)
        (constant (F := Ideal) (⟨2, ![512, 1024]⟩ : Shape) .f32 0x00000000#32) (ix2 r o)
      + broadcastTo S512x1024 (shapeCast S1x1024 b shapeCasts_S1x1024_S1x1024) broadcasts_S1x1024_S512x1024 (ix2 r o) = _
  rw [Cert.GatedMix.matmul_transposed_zero_apply, broadcastTo_1b_ab_apply, shapeCast_self, shapeCast_self]
  unfold Cert.GatedMix.rowDotT Cert.RowDot.rowOf lin dot
  refine congrArg (· + b (ix2 (0 : Fin 1) o)) (Finset.sum_congr rfl fun e _ => ?_)
  show k0_pay1 (F := Ideal) v0 (ix2 r e) * w (ix2 o e) = _
  rw [tokens_apply]

end Cert.Attn

end
-- ==== Proof.ProjArray.lean ====
/-
  The first call's three result arrays, each as one function of the arrays the call finds on entry.

  Grid point g of the first call reads token rows 512 g … 512 g + 511 of the flattened [32768, 1024] input, the three
  whole weight matrices and the three bias rows, and writes back rows 512 g … 512 g + 511 of each of its three results.
  The 64 row blocks tile each [32768, 1024] result, and what a point writes is the matching block of ONE function: entry
  (r, o) is token row r against row o of the weights, plus the bias at o.  Stated for any contents the call may find.
-/
import proofs.«123544_j5239860101728_2_alg».proof.Proof.Gen.KernelIdeal.Frame
import proofs.«123544_j5239860101728_2_alg».proof.Proof.ProjBlock
import Idealize.ShloMosaic.Lib.Pipeline.Value

set_option maxRecDepth 16384

noncomputable section

namespace Cert.Attn

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The affine map depends on its row, its weights and its bias only through their entries. -/
theorem lin_congr {κ μ : Type} [Fintype κ] {u u' : κ → EReal} {W W' : μ → κ → EReal} {b b' : μ → EReal} {o o' : μ}
    (hu : ∀ e, u e = u' e) (hW : ∀ p e, W p e = W' p e) (hb : ∀ p, b p = b' p) (ho : o = o') :
    lin u W b o = lin u' W' b' o' := by
  obtain rfl : u = u' := funext hu
  obtain rfl : W = W' := funext fun p => funext (hW p)
  obtain rfl : b = b' := funext hb
  subst ho
  rfl

/-- The affine map of a [32768, 1024] array of token rows by a [1024, 1024] weight matrix and a [1, 1024] bias row. -/
def projOf (X : S32768x1024.Idx → EReal) (W : S1024x1024.Idx → EReal) (B : S1x1024.Idx → EReal) : S32768x1024.Idx → EReal := fun i =>
  lin (fun e : Fin 1024 => X (ix2 (i 0) e)) (fun (p e : Fin 1024) => W (ix2 p e)) (fun p : Fin 1024 => B (ix2 (0 : Fin 1) p)) (i 1)

/-- The printed index maps over the grid, for output window 7: the token block and this output block move together, the
    weight and bias blocks stay put, and the block index stays in range. -/
theorem idx_facts0_7 : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_4.index t (0 : Fin 2) = 0 ∧ win0_4.index t (1 : Fin 2) = 0
    ∧ win0_7.index t (1 : Fin 2) = 0 ∧ win0_7.index t (0 : Fin 2) < 64 :=
  (by decide +kernel : ∀ t : Fin grid0.N, _)

/-- Every block of output 7 is some point's. -/
theorem idx_onto0_7 : ∀ q0 : Fin 64, ∃ t : Fin cfg0.N, win0_7.index t = ![q0.val, 0] :=
  (by decide +kernel : ∀ q0 : Fin 64, ∃ t : Fin grid0.N, win0_7.index t = ![q0.val, 0])

/-- WHAT POINT t WRITES BACK through window 7 is block t of the affine map of the arrays as the call finds them. -/
theorem flushed0_7 (c : Dev nD) (t : Fin cfg0.N) :
    (dat0 (F := Ideal) V c).flushed 7 t
      = ((cfg0.win 7).blk t).view.read (Elt Ideal) (projOf (V c main_v6) (V c main_v0) (V c main_v3)) := by
  show (cfg0.win 7).cut (grid0.coords t) ((dat0 (F := Ideal) V c).after 7 t) = _
  rw [after0_7]
  unfold out0_7
  rw [View.canon_unit_zero hz2]
  simp only [View.ld_unit_zero (S := S512x1024) hz2, View.ld_unit_zero (S := S1024x1024) hz2, View.ld_unit_zero (S := S1x1024) hz2]
  rw [pay2_eq]
  obtain ⟨e00, e01, e10, e11, e20, e21, e31, b0⟩ := idx_facts0_7 t
  refine funext fun (j : S512x1024.Idx) => ?_
  obtain ⟨r, o, rfl⟩ : ∃ (r : Fin 512) (o : Fin 1024), j = ix2 r o := ⟨j 0, j 1, eq_ix2 j⟩
  refine (projBlock_apply (iblk0 V c 0 t) (iblk0 V c 1 t) (iblk0 V c 4 t) r o).trans ?_
  show _ = projOf (V c main_v6) (V c main_v0) (V c main_v3) (((cfg0.win 7).blk t).view.emb (ix2 r o))
  unfold projOf
  refine lin_congr (fun e => ?_) (fun o' e => ?_) (fun o' => ?_) (Fin.ext ?_)
  · show V c main_v6 (((cfg0.win 0).blk t).view.emb (ix2 r e)) = _
    refine congrArg (V c main_v6) (funext fun a => Fin.ext ?_)
    match a with
    | ⟨0, _⟩ => show win0_0.index t (0 : Fin 2) * 512 + 1 * r.val = win0_7.index t (0 : Fin 2) * 512 + 1 * r.val; omega
    | ⟨1, _⟩ => show win0_0.index t (1 : Fin 2) * 1024 + 1 * e.val = e.val; omega
  · show V c main_v0 (((cfg0.win 1).blk t).view.emb (ix2 o' e)) = _
    refine congrArg (V c main_v0) (funext fun a => Fin.ext ?_)
    match a with
    | ⟨0, _⟩ => show win0_1.index t (0 : Fin 2) * 1024 + 1 * o'.val = o'.val; omega
    | ⟨1, _⟩ => show win0_1.index t (1 : Fin 2) * 1024 + 1 * e.val = e.val; omega
  · show V c main_v3 (((cfg0.win 4).blk t).view.emb (ix2 (0 : Fin 1) o')) = _
    refine congrArg (V c main_v3) (funext fun a => Fin.ext ?_)
    match a with
    | ⟨0, _⟩ => show win0_4.index t (0 : Fin 2) * 1 + 1 * 0 = 0; omega
    | ⟨1, _⟩ => show win0_4.index t (1 : Fin 2) * 1024 + 1 * o'.val = o'.val; omega
  · show o.val = win0_7.index t (1 : Fin 2) * 1024 + 1 * o.val; omega

/-- An index of output 7 is in point t's block iff each coordinate is in the block's range on its axis. -/
theorem mem_blk0_7 (t : Fin cfg0.N) (i : S32768x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v7_0).slice (win0_7.rect t)).set ↔ _
  rw [View.set_slice_whole, Rect.mem_set_unit]
  exact Iff.rfl

/-- The 64 row blocks cover output 7. -/
theorem cover0_7' (i : S32768x1024.Idx) :
    ∃ t : Fin cfg0.N, (cfg0.win 7).flush t = true ∧ i ∈ ((cfg0.win 7).blk t).view.set := by
  have hi0 : (i 0).val < 32768 := (i 0).isLt
  have hi1 : (i 1).val < 1024 := (i 1).isLt
  obtain ⟨t, ht⟩ := idx_onto0_7 ⟨(i 0).val / 512, by omega⟩
  have q0 : win0_7.index t (0 : Fin 2) = (i 0).val / 512 := congrFun ht 0
  have q1 : win0_7.index t (1 : Fin 2) = 0 := congrFun ht 1
  refine ⟨t, flush0_7 t, (mem_blk0_7 t i).mpr fun a => ?_⟩
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- OUTPUT 7 after the first call: the affine map of the flattened tokens by its weight matrix and bias. -/
theorem region0_value_7 (c : Dev nD) :
    (dat0 (F := Ideal) V c).arrAt 7 cfg0.N = projOf (V c main_v6) (V c main_v0) (V c main_v3) :=
  (dat0 (F := Ideal) V c).arrAt_eq_of_cover 7 _ (fun t _ => flushed0_7 V c t) (cover0_7')

/-- The printed index maps over the grid, for output window 8: the token block and this output block move together, the
    weight and bias blocks stay put, and the block index stays in range. -/
theorem idx_facts0_8 : ∀ t : Fin cfg0.N,
    win0_0.index t (0 : Fin 2) = win0_8.index t (0 : Fin 2) ∧ win0_0.index t (1 : Fin 2) = 0
    ∧ win0_2.index t (0 : Fin 2) = 0 ∧ win0_2.index t (1 : Fin 2) = 0
    ∧ win0_5.index t (0 : Fin 2) = 0 ∧ win0_5.index t (1 : Fin 2) = 0
    ∧ win0_8.index t (1 : Fin 2) = 0 ∧ win0_8.index t (0 : Fin 2) < 64 :=
  (by decide +kernel : ∀ t : Fin grid0.N, _)

/-- Every block of output 8 is some point's. -/
theorem idx_onto0_8 : ∀ q0 : Fin 64, ∃ t : Fin cfg0.N, win0_8.index t = ![q0.val, 0] :=
  (by decide +kernel : ∀ q0 : Fin 64, ∃ t : Fin grid0.N, win0_8.index t = ![q0.val, 0])

/-- WHAT POINT t WRITES BACK through window 8 is block t of the affine map of the arrays as the call finds them. -/
theorem flushed0_8 (c : Dev nD) (t : Fin cfg0.N) :
    (dat0 (F := Ideal) V c).flushed 8 t
      = ((cfg0.win 8).blk t).view.read (Elt Ideal) (projOf (V c main_v6) (V c main_v1) (V c main_v4)) := by
  show (cfg0.win 8).cut (grid0.coords t) ((dat0 (F := Ideal) V c).after 8 t) = _
  rw [after0_8]
  unfold out0_8
  rw [View.canon_unit_zero hz2]
  simp only [View.ld_unit_zero (S := S512x1024) hz2, View.ld_unit_zero (S := S1024x1024) hz2, View.ld_unit_zero (S := S1x1024) hz2]
  rw [pay3_eq]
  obtain ⟨e00, e01, e10, e11, e20, e21, e31, b0⟩ := idx_facts0_8 t
  refine funext fun (j : S512x1024.Idx) => ?_
  obtain ⟨r, o, rfl⟩ : ∃ (r : Fin 512) (o : Fin 1024), j = ix2 r o := ⟨j 0, j 1, eq_ix2 j⟩
  refine (projBlock_apply (iblk0 V c 0 t) (iblk0 V c 2 t) (iblk0 V c 5 t) r o).trans ?_
  show _ = projOf (V c main_v6) (V c main_v1) (V c main_v4) (((cfg0.win 8).blk t).view.emb (ix2 r o))
  unfold projOf
  refine lin_congr (fun e => ?_) (fun o' e => ?_) (fun o' => ?_) (Fin.ext ?_)
  · show V c main_v6 (((cfg0.win 0).blk t).view.emb (ix2 r e)) = _
    refine congrArg (V c main_v6) (funext fun a => Fin.ext ?_)
    match a with
    | ⟨0, _⟩ => show win0_0.index t (0 : Fin 2) * 512 + 1 * r.val = win0_8.index t (0 : Fin 2) * 512 + 1 * r.val; omega
    | ⟨1, _⟩ => show win0_0.index t (1 : Fin 2) * 1024 + 1 * e.val = e.val; omega
  · show V c main_v1 (((cfg0.win 2).blk t).view.emb (ix2 o' e)) = _
    refine congrArg (V c main_v1) (funext fun a => Fin.ext ?_)
    match a with
    | ⟨0, _⟩ => show win0_2.index t (0 : Fin 2) * 1024 + 1 * o'.val = o'.val; omega
    | ⟨1, _⟩ => show win0_2.index t (1 : Fin 2) * 1024 + 1 * e.val = e.val; omega
  · show V c main_v4 (((cfg0.win 5).blk t).view.emb (ix2 (0 : Fin 1) o')) = _
    refine congrArg (V c main_v4) (funext fun a => Fin.ext ?_)
    match a with
    | ⟨0, _⟩ => show win0_5.index t (0 : Fin 2) * 1 + 1 * 0 = 0; omega
    | ⟨1, _⟩ => show win0_5.index t (1 : Fin 2) * 1024 + 1 * o'.val = o'.val; omega
  · show o.val = win0_8.index t (1 : Fin 2) * 1024 + 1 * o.val; omega

/-- An index of output 8 is in point t's block iff each coordinate is in the block's range on its axis. -/
theorem mem_blk0_8 (t : Fin cfg0.N) (i : S32768x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v7_1).slice (win0_8.rect t)).set ↔ _
  rw [View.set_slice_whole, Rect.mem_set_unit]
  exact Iff.rfl

/-- The 64 row blocks cover output 8. -/
theorem cover0_8' (i : S32768x1024.Idx) :
    ∃ t : Fin cfg0.N, (cfg0.win 8).flush t = true ∧ i ∈ ((cfg0.win 8).blk t).view.set := by
  have hi0 : (i 0).val < 32768 := (i 0).isLt
  have hi1 : (i 1).val < 1024 := (i 1).isLt
  obtain ⟨t, ht⟩ := idx_onto0_8 ⟨(i 0).val / 512, by omega⟩
  have q0 : win0_8.index t (0 : Fin 2) = (i 0).val / 512 := congrFun ht 0
  have q1 : win0_8.index t (1 : Fin 2) = 0 := congrFun ht 1
  refine ⟨t, flush0_8 t, (mem_blk0_8 t i).mpr fun a => ?_⟩
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1024 ≤ (i 1).val ∧ (i 1).val < win0_8.index t (1 : Fin 2) * 1024 + 1024; omega

/-- OUTPUT 8 after the first call: the affine map of the flattened tokens by its weight matrix and bias. -/
theorem region0_value_8 (c : Dev nD) :
    (dat0 (F := Ideal) V c).arrAt 8 cfg0.N = projOf (V c main_v6) (V c main_v1) (V c main_v4) :=
  (dat0 (F := Ideal) V c).arrAt_eq_of_cover 8 _ (fun t _ => flushed0_8 V c t) (cover0_8')

/-- The printed index maps over the grid, for output window 9: the token block and this output block move together, the
    weight and bias blocks stay put, and the block index stays in range. -/
theorem idx_facts0_9 : ∀ t : Fin cfg0.N,
    win0_0.index t (0 : Fin 2) = win0_9.index t (0 : Fin 2) ∧ win0_0.index t (1 : Fin 2) = 0
    ∧ win0_3.index t (0 : Fin 2) = 0 ∧ win0_3.index t (1 : Fin 2) = 0
    ∧ win0_6.index t (0 : Fin 2) = 0 ∧ win0_6.index t (1 : Fin 2) = 0
    ∧ win0_9.index t (1 : Fin 2) = 0 ∧ win0_9.index t (0 : Fin 2) < 64 :=
  (by decide +kernel : ∀ t : Fin grid0.N, _)

/-- Every block of output 9 is some point's. -/
theorem idx_onto0_9 : ∀ q0 : Fin 64, ∃ t : Fin cfg0.N, win0_9.index t = ![q0.val, 0] :=
  (by decide +kernel : ∀ q0 : Fin 64, ∃ t : Fin grid0.N, win0_9.index t = ![q0.val, 0])

/-- WHAT POINT t WRITES BACK through window 9 is block t of the affine map of the arrays as the call finds them. -/
theorem flushed0_9 (c : Dev nD) (t : Fin cfg0.N) :
    (dat0 (F := Ideal) V c).flushed 9 t
      = ((cfg0.win 9).blk t).view.read (Elt Ideal) (projOf (V c main_v6) (V c main_v2) (V c main_v5)) := by
  show (cfg0.win 9).cut (grid0.coords t) ((dat0 (F := Ideal) V c).after 9 t) = _
  rw [after0_9]
  unfold out0_9
  rw [View.canon_unit_zero hz2]
  simp only [View.ld_unit_zero (S := S512x1024) hz2, View.ld_unit_zero (S := S1024x1024) hz2, View.ld_unit_zero (S := S1x1024) hz2]
  rw [pay4_eq]
  obtain ⟨e00, e01, e10, e11, e20, e21, e31, b0⟩ := idx_facts0_9 t
  refine funext fun (j : S512x1024.Idx) => ?_
  obtain ⟨r, o, rfl⟩ : ∃ (r : Fin 512) (o : Fin 1024), j = ix2 r o := ⟨j 0, j 1, eq_ix2 j⟩
  refine (projBlock_apply (iblk0 V c 0 t) (iblk0 V c 3 t) (iblk0 V c 6 t) r o).trans ?_
  show _ = projOf (V c main_v6) (V c main_v2) (V c main_v5) (((cfg0.win 9).blk t).view.emb (ix2 r o))
  unfold projOf
  refine lin_congr (fun e => ?_) (fun o' e => ?_) (fun o' => ?_) (Fin.ext ?_)
  · show V c main_v6 (((cfg0.win 0).blk t).view.emb (ix2 r e)) = _
    refine congrArg (V c main_v6) (funext fun a => Fin.ext ?_)
    match a with
    | ⟨0, _⟩ => show win0_0.index t (0 : Fin 2) * 512 + 1 * r.val = win0_9.index t (0 : Fin 2) * 512 + 1 * r.val; omega
    | ⟨1, _⟩ => show win0_0.index t (1 : Fin 2) * 1024 + 1 * e.val = e.val; omega
  · show V c main_v2 (((cfg0.win 3).blk t).view.emb (ix2 o' e)) = _
    refine congrArg (V c main_v2) (funext fun a => Fin.ext ?_)
    match a with
    | ⟨0, _⟩ => show win0_3.index t (0 : Fin 2) * 1024 + 1 * o'.val = o'.val; omega
    | ⟨1, _⟩ => show win0_3.index t (1 : Fin 2) * 1024 + 1 * e.val = e.val; omega
  · show V c main_v5 (((cfg0.win 6).blk t).view.emb (ix2 (0 : Fin 1) o')) = _
    refine congrArg (V c main_v5) (funext fun a => Fin.ext ?_)
    match a with
    | ⟨0, _⟩ => show win0_6.index t (0 : Fin 2) * 1 + 1 * 0 = 0; omega
    | ⟨1, _⟩ => show win0_6.index t (1 : Fin 2) * 1024 + 1 * o'.val = o'.val; omega
  · show o.val = win0_9.index t (1 : Fin 2) * 1024 + 1 * o.val; omega

/-- An index of output 9 is in point t's block iff each coordinate is in the block's range on its axis. -/
theorem mem_blk0_9 (t : Fin cfg0.N) (i : S32768x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v7_2).slice (win0_9.rect t)).set ↔ _
  rw [View.set_slice_whole, Rect.mem_set_unit]
  exact Iff.rfl

/-- The 64 row blocks cover output 9. -/
theorem cover0_9' (i : S32768x1024.Idx) :
    ∃ t : Fin cfg0.N, (cfg0.win 9).flush t = true ∧ i ∈ ((cfg0.win 9).blk t).view.set := by
  have hi0 : (i 0).val < 32768 := (i 0).isLt
  have hi1 : (i 1).val < 1024 := (i 1).isLt
  obtain ⟨t, ht⟩ := idx_onto0_9 ⟨(i 0).val / 512, by omega⟩
  have q0 : win0_9.index t (0 : Fin 2) = (i 0).val / 512 := congrFun ht 0
  have q1 : win0_9.index t (1 : Fin 2) = 0 := congrFun ht 1
  refine ⟨t, flush0_9 t, (mem_blk0_9 t i).mpr fun a => ?_⟩
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- OUTPUT 9 after the first call: the affine map of the flattened tokens by its weight matrix and bias. -/
theorem region0_value_9 (c : Dev nD) :
    (dat0 (F := Ideal) V c).arrAt 9 cfg0.N = projOf (V c main_v6) (V c main_v2) (V c main_v5) :=
  (dat0 (F := Ideal) V c).arrAt_eq_of_cover 9 _ (fun t _ => flushed0_9 V c t) (cover0_9')

end Cert.Attn

end
-- ==== Proof.KValue.lean ====
/-
  The idealized kernel's result, as the specification's normalize-after attention of the seven argument arrays.

  Between the launch and the return the program's buffers change four times: the host casts the weights' format
  (the identity on values), recasts each bias as a [1, 1024] row and flattens the tokens to [32768, 1024]; the first call
  writes the three affine maps of the flattened tokens; the host unflattens them to [16, 2048, 1024]; the second call
  writes the attention of the three.  Flattening sends token (b, s) to row 2048 b + s and unflattening sends it back, so
  entry (b, s, o) of each unflattened map is the affine map of token row (b, s) at o — and the result is `headAfter`.
-/
import proofs.«123544_j5239860101728_2_alg».proof.Proof.KRun
import proofs.«123544_j5239860101728_2_alg».proof.Proof.AttnArray
import proofs.«123544_j5239860101728_2_alg».proof.Proof.ProjArray
import Idealize.ShloMosaic.Lib.StableHlo.Run
import Idealize.ShloMosaic.Lib.ValueLayout

set_option maxRecDepth 16384

noncomputable section

namespace Cert.Attn

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the first call finds -/

theorem entry_tokens (c : Dev nD) :
    (V1 m ρ c main_v6 : S32768x1024.Idx → EReal)
      = shapeCast S32768x1024 (m ((c : Thread nD τ).loc main_arg0) : S16x2048x1024.Idx → EReal) shapeCasts_S16x2048x1024_S32768x1024 := by
  show StableHlo.after hostOps0 (W0 m ρ c) (Proc.devRef .tc main_v6) = _
  after_results
  rfl

theorem entry_Wq (c : Dev nD) : (V1 m ρ c main_v0 : S1024x1024.Idx → EReal) = (m ((c : Thread nD τ).loc main_arg1) : S1024x1024.Idx → EReal) := by
  show StableHlo.after hostOps0 (W0 m ρ c) (Proc.devRef .tc main_v0) = _
  after_results
  rfl
theorem entry_Wk (c : Dev nD) : (V1 m ρ c main_v1 : S1024x1024.Idx → EReal) = (m ((c : Thread nD τ).loc main_arg3) : S1024x1024.Idx → EReal) := by
  show StableHlo.after hostOps0 (W0 m ρ c) (Proc.devRef .tc main_v1) = _
  after_results
  rfl
theorem entry_Wv (c : Dev nD) : (V1 m ρ c main_v2 : S1024x1024.Idx → EReal) = (m ((c : Thread nD τ).loc main_arg5) : S1024x1024.Idx → EReal) := by
  show StableHlo.after hostOps0 (W0 m ρ c) (Proc.devRef .tc main_v2) = _
  after_results
  rfl

theorem entry_bq (c : Dev nD) :
    (V1 m ρ c main_v3 : S1x1024.Idx → EReal) = shapeCast S1x1024 (m ((c : Thread nD τ).loc main_arg2) : S1024.Idx → EReal) shapeCasts_S1024_S1x1024 := by
  show StableHlo.after hostOps0 (W0 m ρ c) (Proc.devRef .tc main_v3) = _
  after_results
  rfl
theorem entry_bk (c : Dev nD) :
    (V1 m ρ c main_v4 : S1x1024.Idx → EReal) = shapeCast S1x1024 (m ((c : Thread nD τ).loc main_arg4) : S1024.Idx → EReal) shapeCasts_S1024_S1x1024 := by
  show StableHlo.after hostOps0 (W0 m ρ c) (Proc.devRef .tc main_v4) = _
  after_results
  rfl
theorem entry_bv (c : Dev nD) :
    (V1 m ρ c main_v5 : S1x1024.Idx → EReal) = shapeCast S1x1024 (m ((c : Thread nD τ).loc main_arg6) : S1024.Idx → EReal) shapeCasts_S1024_S1x1024 := by
  show StableHlo.after hostOps0 (W0 m ρ c) (Proc.devRef .tc main_v5) = _
  after_results
  rfl

/-! ## Flatten, map, unflatten -/

/-- Token (b, s) is row 2048 b + s of the flattened array, and comes back to (b, s): the unflattened affine map of the
    flattened tokens is, at (b, s, o), the affine map of token row (b, s) at o. -/
theorem unflatten_proj (X0 : S16x2048x1024.Idx → EReal) (W : S1024x1024.Idx → EReal) (B : S1024.Idx → EReal)
    (b : Fin 16) (s : Fin 2048) (o : Fin 1024) :
    shapeCast S16x2048x1024 (projOf (shapeCast S32768x1024 X0 shapeCasts_S16x2048x1024_S32768x1024) W
        (shapeCast S1x1024 B shapeCasts_S1024_S1x1024)) shapeCasts_S32768x1024_S16x2048x1024 (ix3 b s o)
      = lin (c3 X0 b s) (c2 W) (c1 B) o := by
  have hr : b.val * 2048 + s.val < 32768 := by have := b.isLt; have := s.isLt; omega
  refine (shapeCast_apply _ shapeCasts_S32768x1024_S16x2048x1024 (ix3 b s o) (ix2 (⟨b.val * 2048 + s.val, hr⟩ : Fin 32768) o) ?_).trans ?_
  · rw [Shape.rowMajor_val_two, Shape.rowMajor_val_three]
    rfl
  · unfold projOf c3 c2 c1
    refine lin_congr (fun e => ?_) (fun p e => rfl) (fun p => ?_) rfl
    · refine shapeCast_apply X0 shapeCasts_S16x2048x1024_S32768x1024 _ (ix3 b s e) ?_
      rw [Shape.rowMajor_val_two, Shape.rowMajor_val_three]
      rfl
    · exact shapeCast_a_1a_apply B shapeCasts_S1024_S1x1024 (0 : Fin 1) p

/-! ## What the second call finds -/

/-- The queries the second call finds: the first call's output 7, unflattened. -/
theorem mid_q (c : Dev nD) :
    (V3 m ρ c main_v8 : S16x2048x1024.Idx → EReal)
      = shapeCast S16x2048x1024 (W2 m ρ c (Proc.devRef .tc main_v7_0) : S32768x1024.Idx → EReal) shapeCasts_S32768x1024_S16x2048x1024 := by
  show StableHlo.after hostOps1 (W2 m ρ c) (Proc.devRef .tc main_v8) = _
  after_results
  rfl

/-- … which, entry by entry, is the affine map of the token rows by the queries' weights and bias. -/
theorem q_array (c : Dev nD) (b : Fin 16) (s : Fin 2048) (o : Fin 1024) :
    (V3 m ρ c main_v8 : S16x2048x1024.Idx → EReal) (ix3 b s o)
      = lin (c3 (m ((c : Thread nD τ).loc main_arg0)) b s) (c2 (m ((c : Thread nD τ).loc main_arg1))) (c1 (m ((c : Thread nD τ).loc main_arg2))) o := by
  rw [mid_q, show (W2 m ρ c (Proc.devRef .tc main_v7_0) : S32768x1024.Idx → EReal) = (dat0 (F := Ideal) (V1 m ρ) c).arrAt 7 cfg0.N from W2_arr m ρ c 7,
    region0_value_7 (V1 m ρ) c, entry_tokens m ρ c, entry_Wq m ρ c, entry_bq m ρ c]
  exact unflatten_proj _ _ _ b s o

/-- The keys the second call finds: the first call's output 8, unflattened. -/
theorem mid_k (c : Dev nD) :
    (V3 m ρ c main_v9 : S16x2048x1024.Idx → EReal)
      = shapeCast S16x2048x1024 (W2 m ρ c (Proc.devRef .tc main_v7_1) : S32768x1024.Idx → EReal) shapeCasts_S32768x1024_S16x2048x1024 := by
  show StableHlo.after hostOps1 (W2 m ρ c) (Proc.devRef .tc main_v9) = _
  after_results
  rfl

/-- … which, entry by entry, is the affine map of the token rows by the keys' weights and bias. -/
theorem k_array (c : Dev nD) (b : Fin 16) (s : Fin 2048) (o : Fin 1024) :
    (V3 m ρ c main_v9 : S16x2048x1024.Idx → EReal) (ix3 b s o)
      = lin (c3 (m ((c : Thread nD τ).loc main_arg0)) b s) (c2 (m ((c : Thread nD τ).loc main_arg3))) (c1 (m ((c : Thread nD τ).loc main_arg4))) o := by
  rw [mid_k, show (W2 m ρ c (Proc.devRef .tc main_v7_1) : S32768x1024.Idx → EReal) = (dat0 (F := Ideal) (V1 m ρ) c).arrAt 8 cfg0.N from W2_arr m ρ c 8,
    region0_value_8 (V1 m ρ) c, entry_tokens m ρ c, entry_Wk m ρ c, entry_bk m ρ c]
  exact unflatten_proj _ _ _ b s o

/-- The values the second call finds: the first call's output 9, unflattened. -/
theorem mid_v (c : Dev nD) :
    (V3 m ρ c main_v10 : S16x2048x1024.Idx → EReal)
      = shapeCast S16x2048x1024 (W2 m ρ c (Proc.devRef .tc main_v7_2) : S32768x1024.Idx → EReal) shapeCasts_S32768x1024_S16x2048x1024 := by
  show StableHlo.after hostOps1 (W2 m ρ c) (Proc.devRef .tc main_v10) = _
  after_results
  rfl

/-- … which, entry by entry, is the affine map of the token rows by the values' weights and bias. -/
theorem v_array (c : Dev nD) (b : Fin 16) (s : Fin 2048) (o : Fin 1024) :
    (V3 m ρ c main_v10 : S16x2048x1024.Idx → EReal) (ix3 b s o)
      = lin (c3 (m ((c : Thread nD τ).loc main_arg0)) b s) (c2 (m ((c : Thread nD τ).loc main_arg5))) (c1 (m ((c : Thread nD τ).loc main_arg6))) o := by
  rw [mid_v, show (W2 m ρ c (Proc.devRef .tc main_v7_2) : S32768x1024.Idx → EReal) = (dat0 (F := Ideal) (V1 m ρ) c).arrAt 9 cfg0.N from W2_arr m ρ c 9,
    region0_value_9 (V1 m ρ) c, entry_tokens m ρ c, entry_Wv m ρ c, entry_bv m ρ c]
  exact unflatten_proj _ _ _ b s o

/-! ## The result -/

/-- THE KERNEL'S RESULT: entry (b, s, d) is the normalize-after attention of the argument arrays. -/
theorem kernel_value (c : Dev nD) :
    (W4 m ρ c (Proc.devRef .tc main_v11) : S16x2048x1024.Idx → EReal)
      = fun i => headAfter (c3 (m ((c : Thread nD τ).loc main_arg0))) (c2 (m ((c : Thread nD τ).loc main_arg1)))
          (c1 (m ((c : Thread nD τ).loc main_arg2))) (c2 (m ((c : Thread nD τ).loc main_arg3))) (c1 (m ((c : Thread nD τ).loc main_arg4)))
          (c2 (m ((c : Thread nD τ).loc main_arg5))) (c1 (m ((c : Thread nD τ).loc main_arg6))) cK lo (i 0) (i 1) (i 2) := by
  rw [show (W4 m ρ c (Proc.devRef .tc main_v11) : S16x2048x1024.Idx → EReal) = (dat1 (F := Ideal) (V3 m ρ) c).arrAt 3 cfg1.N from W4_arr m ρ c 3,
    region1_value (V3 m ρ) c]
  funext i
  obtain ⟨b, s, d, rfl⟩ : ∃ (b : Fin 16) (s : Fin 2048) (d : Fin 1024), i = ix3 b s d := ⟨i 0, i 1, i 2, eq_ix3 i⟩
  show mixAfter lo (logit (fun e : Fin 1024 => (V3 m ρ c main_v8 : S16x2048x1024.Idx → EReal) (ix3 b s e))
      (fun (t : Fin 2048) (e : Fin 1024) => (V3 m ρ c main_v9 : S16x2048x1024.Idx → EReal) (ix3 b t e)) cK)
      (fun t : Fin 2048 => (V3 m ρ c main_v10 : S16x2048x1024.Idx → EReal) (ix3 b t d)) = _
  unfold headAfter scores values
  exact mixAfter_congr (fun e => q_array m ρ c b s e) (fun t e => k_array m ρ c b t e) (fun t => v_array m ρ c b t d) cK lo

end Cert.Attn

end
-- ==== Proof.RefSide.lean ====
/-
  The reference program's result, read at an index, is the specification's `headBefore`.

  The reference computes three affine maps of every token row (queries, keys, values), the scaled inner products
  of a query row with the key rows of its sequence, their largest entry, the exponentials of the distances below
  it, their total, each exponential divided by that total, and the combination of the value rows with those
  quotients.  Each step is read at an index built from literal coordinates, bottom-up; the last lemma is the sum
  that defines `mixBefore`.
-/
import proofs.«123544_j5239860101728_2_alg».proof.Proof.Gen.ReferenceIdeal.Read
import proofs.«123544_j5239860101728_2_alg».proof.Proof.Spec
import Idealize.ShloMosaic.PureOps.Ideal.Laws

noncomputable section

namespace Cert.Attn

open Cert.ReferenceIdeal Idealize.ShloMosaic Idealize.ShloMosaic.ValueIdx

/-- The three argument shapes' arrays at the ideal values. -/
abbrev RefArg3 := (⟨Cert.ReferenceIdeal.S16x2048x1024, .f32⟩ : BufTy).Contents (Elt Ideal)
abbrev RefArg2 := (⟨Cert.ReferenceIdeal.S1024x1024, .f32⟩ : BufTy).Contents (Elt Ideal)
abbrev RefArg1 := (⟨Cert.ReferenceIdeal.S1024, .f32⟩ : BufTy).Contents (Elt Ideal)

section Steps

variable [Cert.ReferenceIdeal.Facts]

/-! ## The three affine maps at an index -/

/-- The query map: entry `(b, s, o)` is row `(b, s)` of the input against row `o` of the weights, plus the bias at `o`. -/
theorem ref_query_at (x0 : RefArg3) (x1 : RefArg2) (x2 : RefArg1) (b : Fin 16) (s : Fin 2048) (o : Fin 1024) :
    Read.val_main_v3 (F := Ideal) x0 x1 x2 (ix3 b s o) = lin (c3 x0 b s) (c2 x1) (c1 x2) o := by
  have el : ∀ k : Fin 1024, Read.lidx_main_v0 (ix3 b s o) k = ix3 b s k := fun k => funext fun a => Fin.ext (by
    match a with | ⟨0, _⟩ => rfl | ⟨1, _⟩ => rfl | ⟨2, _⟩ => rfl)
  have er : ∀ k : Fin 1024, Read.ridx_main_v0 (ix3 b s o) k = ix2 o k := fun k => funext fun a => Fin.ext (by
    match a with | ⟨0, _⟩ => rfl | ⟨1, _⟩ => rfl)
  have eb : Read.idx_main_v1 (Read.idx_main_v2 (ix3 b s o)) = ix1 o := funext fun a => Fin.ext (by
    match a with | ⟨0, _⟩ => rfl)
  rw [Read.val_main_v3_apply, Read.val_main_v0_apply, Read.val_main_v2_apply, Read.val_main_v1_apply, eb]
  simp only [el, er]
  rfl

/-- The key map, likewise. -/
theorem ref_key_at (x0 : RefArg3) (x3 : RefArg2) (x4 : RefArg1) (b : Fin 16) (s : Fin 2048) (o : Fin 1024) :
    Read.val_main_v7 (F := Ideal) x0 x3 x4 (ix3 b s o) = lin (c3 x0 b s) (c2 x3) (c1 x4) o := by
  have el : ∀ k : Fin 1024, Read.lidx_main_v4 (ix3 b s o) k = ix3 b s k := fun k => funext fun a => Fin.ext (by
    match a with | ⟨0, _⟩ => rfl | ⟨1, _⟩ => rfl | ⟨2, _⟩ => rfl)
  have er : ∀ k : Fin 1024, Read.ridx_main_v4 (ix3 b s o) k = ix2 o k := fun k => funext fun a => Fin.ext (by
    match a with | ⟨0, _⟩ => rfl | ⟨1, _⟩ => rfl)
  have eb : Read.idx_main_v5 (Read.idx_main_v6 (ix3 b s o)) = ix1 o := funext fun a => Fin.ext (by
    match a with | ⟨0, _⟩ => rfl)
  rw [Read.val_main_v7_apply, Read.val_main_v4_apply, Read.val_main_v6_apply, Read.val_main_v5_apply, eb]
  simp only [el, er]
  rfl

/-- The value map, likewise. -/
theorem ref_value_at (x0 : RefArg3) (x5 : RefArg2) (x6 : RefArg1) (b : Fin 16) (s : Fin 2048) (o : Fin 1024) :
    Read.val_main_v11 (F := Ideal) x0 x5 x6 (ix3 b s o) = lin (c3 x0 b s) (c2 x5) (c1 x6) o := by
  have el : ∀ k : Fin 1024, Read.lidx_main_v8 (ix3 b s o) k = ix3 b s k := fun k => funext fun a => Fin.ext (by
    match a with | ⟨0, _⟩ => rfl | ⟨1, _⟩ => rfl | ⟨2, _⟩ => rfl)
  have er : ∀ k : Fin 1024, Read.ridx_main_v8 (ix3 b s o) k = ix2 o k := fun k => funext fun a => Fin.ext (by
    match a with | ⟨0, _⟩ => rfl | ⟨1, _⟩ => rfl)
  have eb : Read.idx_main_v9 (Read.idx_main_v10 (ix3 b s o)) = ix1 o := funext fun a => Fin.ext (by
    match a with | ⟨0, _⟩ => rfl)
  rw [Read.val_main_v11_apply, Read.val_main_v8_apply, Read.val_main_v10_apply, Read.val_main_v9_apply, eb]
  simp only [el, er]
  rfl

/-! ## The scaled inner products -/

/-- The scale the program computes on scalars, one over the square root of 1024, is the specification's `cR`. -/
theorem ref_scale_at (j : Cert.ReferenceIdeal.S_.Idx) : Read.val_main_v13 (F := Ideal) j = cR := rfl

/-- Entry `(b, s, t)` of the scaled products: query row `(b, s)` against key row `(b, t)`, times the scale. -/
theorem ref_score_at (x0 : RefArg3) (x1 : RefArg2) (x2 : RefArg1) (x3 : RefArg2) (x4 : RefArg1)
    (b : Fin 16) (s t : Fin 2048) :
    Read.val_main_v16 (F := Ideal) x0 x1 x2 x3 x4 (ix3 b s t)
      = scores (c3 x0) (c2 x1) (c1 x2) (c2 x3) (c1 x4) cR b s t := by
  have el : ∀ k : Fin 1024, Read.lidx_main_v14 (ix3 b s t) k = ix3 b s k := fun k => funext fun a => Fin.ext (by
    match a with | ⟨0, _⟩ => rfl | ⟨1, _⟩ => rfl | ⟨2, _⟩ => rfl)
  have er : ∀ k : Fin 1024, Read.ridx_main_v14 (ix3 b s t) k = ix3 b t k := fun k => funext fun a => Fin.ext (by
    match a with | ⟨0, _⟩ => rfl | ⟨1, _⟩ => rfl | ⟨2, _⟩ => rfl)
  rw [Read.val_main_v16_apply, Read.val_main_v14_apply, Read.val_main_v15_apply, ref_scale_at]
  simp only [el, er, ref_query_at, ref_key_at]
  rfl

/-! ## The row maximum -/

/-- The program's row maximum at `(b, s)`: the fold of `max` over the key positions, from the starting value `lo`. -/
theorem ref_rowmax_at (x0 : RefArg3) (x1 : RefArg2) (x2 : RefArg1) (x3 : RefArg2) (x4 : RefArg1)
    (b : Fin 16) (s : Fin 2048) :
    Read.val_main_v17 (F := Ideal) x0 x1 x2 x3 x4 (ix2 b s)
      = peak lo (scores (c3 x0) (c2 x1) (c1 x2) (c2 x3) (c1 x4) cR b s) := by
  have h : Cert.ReferenceIdeal.S16x2048x2048.Reduces [2] Cert.ReferenceIdeal.S16x2048 := by decide
  have ek : ∀ t : Fin 2048, h.lift (ix2 b s) t = ix3 b s t := fun t => funext fun a => Fin.ext (by
    match a with | ⟨0, _⟩ => rfl | ⟨1, _⟩ => rfl | ⟨2, _⟩ => rfl)
  unfold Read.val_main_v17
  rw [Host.reduce_eq_fold_single (FloatOps.maximumf (F := Ideal) (φ := .f32)) _ _ _ h]
  show (Finset.univ : Finset (Fin 2048)).fold max lo
      (fun t => Read.val_main_v16 (F := Ideal) x0 x1 x2 x3 x4 (h.lift (ix2 b s) t))
    = (Finset.univ : Finset (Fin 2048)).fold max lo (scores (c3 x0) (c2 x1) (c1 x2) (c2 x3) (c1 x4) cR b s)
  refine congrArg (fun z => (Finset.univ : Finset (Fin 2048)).fold max lo z) (funext fun t => ?_)
  exact (congrArg (Read.val_main_v16 (F := Ideal) x0 x1 x2 x3 x4) (ek t)).trans (ref_score_at x0 x1 x2 x3 x4 b s t)

/-- Taking the maximum with the starting value again changes nothing: the fold already lies above it.  So the
    program's guarded row maximum at `(b, s)` is the specification's `peak`. -/
theorem ref_peak_at (x0 : RefArg3) (x1 : RefArg2) (x2 : RefArg1) (x3 : RefArg2) (x4 : RefArg1)
    (b : Fin 16) (s : Fin 2048) :
    Read.val_main_v19 (F := Ideal) x0 x1 x2 x3 x4 (ix2 b s)
      = peak lo (scores (c3 x0) (c2 x1) (c1 x2) (c2 x3) (c1 x4) cR b s) := by
  rw [Read.val_main_v19_apply, Read.val_main_v18_apply, ref_rowmax_at]
  show max lo (peak lo _) = peak lo _
  exact max_eq_right ((Finset.le_fold_max lo).mpr (Or.inl le_rfl))

/-! ## The weights, their total, and the quotients -/

/-- Entry `(b, s, t)` of the exponentials: the weight of key position `t` for query `(b, s)`. -/
theorem ref_weight_at (x0 : RefArg3) (x1 : RefArg2) (x2 : RefArg1) (x3 : RefArg2) (x4 : RefArg1)
    (b : Fin 16) (s t : Fin 2048) :
    Read.val_main_v23 (F := Ideal) x0 x1 x2 x3 x4 (ix3 b s t)
      = wgt lo (scores (c3 x0) (c2 x1) (c1 x2) (c2 x3) (c1 x4) cR b s) t := by
  have ej : Read.idx_main_v20 (Read.idx_main_v21 (ix3 b s t)) = ix2 b s := funext fun a => Fin.ext (by
    match a with | ⟨0, _⟩ => rfl | ⟨1, _⟩ => rfl)
  rw [Read.val_main_v23_apply, Read.val_main_v22_apply, Read.val_main_v21_apply, Read.val_main_v20_apply, ej,
    ref_peak_at, ref_score_at]
  rfl

/-- The total weight of query `(b, s)`: the program adds the weights to the zero pattern, which is zero. -/
theorem ref_total_at (x0 : RefArg3) (x1 : RefArg2) (x2 : RefArg1) (x3 : RefArg2) (x4 : RefArg1)
    (b : Fin 16) (s : Fin 2048) :
    Read.val_main_v24 (F := Ideal) x0 x1 x2 x3 x4 (ix2 b s)
      = ∑ t : Fin 2048, wgt lo (scores (c3 x0) (c2 x1) (c1 x2) (c2 x3) (c1 x4) cR b s) t := by
  have ek : ∀ t : Fin 2048, Read.idx_main_v24 (ix2 b s) t = ix3 b s t := fun t => funext fun a => Fin.ext (by
    match a with | ⟨0, _⟩ => rfl | ⟨1, _⟩ => rfl | ⟨2, _⟩ => rfl)
  rw [Read.val_main_v24_apply, Read.val_main_cst_3_apply]
  show Ideal.ofBits .f32 0x00000000#32 + _ = _
  rw [Ideal.ofBits_zero_f32, zero_add]
  exact Finset.sum_congr rfl fun t _ =>
    (congrArg (Read.val_main_v23 (F := Ideal) x0 x1 x2 x3 x4) (ek t)).trans (ref_weight_at x0 x1 x2 x3 x4 b s t)

/-- Entry `(b, s, t)` of the quotients: the weight of `t` divided by the total weight. -/
theorem ref_share_at (x0 : RefArg3) (x1 : RefArg2) (x2 : RefArg1) (x3 : RefArg2) (x4 : RefArg1)
    (b : Fin 16) (s t : Fin 2048) :
    Read.val_main_v27 (F := Ideal) x0 x1 x2 x3 x4 (ix3 b s t)
      = Ideal.div (wgt lo (scores (c3 x0) (c2 x1) (c1 x2) (c2 x3) (c1 x4) cR b s) t)
          (∑ t' : Fin 2048, wgt lo (scores (c3 x0) (c2 x1) (c1 x2) (c2 x3) (c1 x4) cR b s) t') := by
  have ej : Read.idx_main_v25 (Read.idx_main_v26 (ix3 b s t)) = ix2 b s := funext fun a => Fin.ext (by
    match a with | ⟨0, _⟩ => rfl | ⟨1, _⟩ => rfl)
  rw [Read.val_main_v27_apply, Read.val_main_v26_apply, Read.val_main_v25_apply, ej, ref_total_at, ref_weight_at]
  rfl

/-! ## The combination of the value rows -/

/-- Output entry `(b, s, d)`: the value rows' feature `d` combined with the quotients of query `(b, s)`. -/
theorem ref_head_at (x0 : RefArg3) (x1 : RefArg2) (x2 : RefArg1) (x3 : RefArg2) (x4 : RefArg1) (x5 : RefArg2) (x6 : RefArg1)
    (b : Fin 16) (s : Fin 2048) (d : Fin 1024) :
    Read.val_main_v28 (F := Ideal) x0 x1 x2 x3 x4 x5 x6 (ix3 b s d)
      = headBefore (c3 x0) (c2 x1) (c1 x2) (c2 x3) (c1 x4) (c2 x5) (c1 x6) cR lo b s d := by
  have el : ∀ t : Fin 2048, Read.lidx_main_v28 (ix3 b s d) t = ix3 b s t := fun t => funext fun a => Fin.ext (by
    match a with | ⟨0, _⟩ => rfl | ⟨1, _⟩ => rfl | ⟨2, _⟩ => rfl)
  have er : ∀ t : Fin 2048, Read.ridx_main_v28 (ix3 b s d) t = ix3 b t d := fun t => funext fun a => Fin.ext (by
    match a with | ⟨0, _⟩ => rfl | ⟨1, _⟩ => rfl | ⟨2, _⟩ => rfl)
  rw [Read.val_main_v28_apply]
  show _ = ∑ t : Fin 2048,
    Ideal.div (wgt lo (scores (c3 x0) (c2 x1) (c1 x2) (c2 x3) (c1 x4) cR b s) t)
        (∑ t' : Fin 2048, wgt lo (scores (c3 x0) (c2 x1) (c1 x2) (c2 x3) (c1 x4) cR b s) t')
      * values (c3 x0) (c2 x5) (c1 x6) b d t
  refine Finset.sum_congr rfl fun t _ => ?_
  rw [el t, er t, ref_share_at, ref_value_at]
  rfl

end Steps

/-! ## The reference's result -/

/-- The reference program's result at any index is the specification's `headBefore` at that index's coordinates. -/
theorem ref_value [Cert.ReferenceIdeal.Facts]
    (x0 : (⟨Cert.ReferenceIdeal.S16x2048x1024, .f32⟩ : BufTy).Contents (Elt Ideal)) (x1 : (⟨Cert.ReferenceIdeal.S1024x1024, .f32⟩ : BufTy).Contents (Elt Ideal))
    (x2 : (⟨Cert.ReferenceIdeal.S1024, .f32⟩ : BufTy).Contents (Elt Ideal)) (x3 : (⟨Cert.ReferenceIdeal.S1024x1024, .f32⟩ : BufTy).Contents (Elt Ideal))
    (x4 : (⟨Cert.ReferenceIdeal.S1024, .f32⟩ : BufTy).Contents (Elt Ideal)) (x5 : (⟨Cert.ReferenceIdeal.S1024x1024, .f32⟩ : BufTy).Contents (Elt Ideal))
    (x6 : (⟨Cert.ReferenceIdeal.S1024, .f32⟩ : BufTy).Contents (Elt Ideal)) (i : Cert.ReferenceIdeal.S16x2048x1024.Idx) :
    Cert.ReferenceIdeal.Read.val_main_v28 (F := Ideal) x0 x1 x2 x3 x4 x5 x6 i
      = headBefore (c3 x0) (c2 x1) (c1 x2) (c2 x3) (c1 x4) (c2 x5) (c1 x6) cR lo (i 0) (i 1) (i 2) :=
  (congrArg (Cert.ReferenceIdeal.Read.val_main_v28 (F := Ideal) x0 x1 x2 x3 x4 x5 x6) (eq_ix3 i)).trans
    (ref_head_at x0 x1 x2 x3 x4 x5 x6 (i 0) (i 1) (i 2))

end Cert.Attn

end
-- ==== Proof.Algebra.lean ====
/-
  The algebra that joins the two programs, on the extended reals.

  Three constants: the pattern of minus infinity is the bottom element, the pattern 0.03125 is the real 1/32,
  and one over the square root of 1024 is the same real.  One law: on a nonempty row of REAL logits and REAL
  values, dividing the weighted combination by the total weight equals combining with each weight divided
  first.  The row's largest entry is then a real, every weight is the exponential of a real (a positive
  real), the total weight is a positive real, division by it is multiplication by its reciprocal, and the
  law is distributivity of a finite real sum.  Finiteness of the inputs is used here and nowhere else: at an
  infinite entry the law fails on the extended reals.
-/
import proofs.«123544_j5239860101728_2_alg».proof.Proof.Spec

noncomputable section

namespace Cert.Attn

open Idealize.ShloMosaic

/-! ### The constants -/

/-- The pattern with sign bit set, all-ones exponent and zero fraction denotes minus infinity. -/
theorem lo_eq_bot : lo = ⊥ := by
  simp [lo, Ideal.ofBits, Ideal.ieee]

/-- The pattern 0x3D000000 denotes 2^23 * 2^(122 - 127 - 23) = 1/32. -/
theorem cK_eq : cK = ((1 / 32 : ℝ) : EReal) := by
  simp [cK, Ideal.ofBits, Ideal.ieee, -EReal.coe_mul]; norm_num

/-- The pattern 0x3F800000 denotes 1. -/
theorem ofBits_one : Ideal.ofBits .f32 0x3F800000#32 = ((1 : ℝ) : EReal) := by
  simp [Ideal.ofBits, Ideal.ieee, -EReal.coe_mul]; norm_num

/-- The pattern 0x44800000 denotes 2^23 * 2^(137 - 127 - 23) = 1024. -/
theorem ofBits_1024 : Ideal.ofBits .f32 0x44800000#32 = ((1024 : ℝ) : EReal) := by
  simp [Ideal.ofBits, Ideal.ieee, -EReal.coe_mul]; norm_num

/-- The square root of 1024 is 32. -/
theorem sqrt_1024 : Real.sqrt 1024 = 32 := by
  rw [show (1024 : ℝ) = 32 ^ 2 by norm_num, Real.sqrt_sq (by norm_num)]

/-- One over the square root of 1024 is 1/32, the other program's literal. -/
theorem cR_eq_cK : cR = cK := by
  rw [cK_eq, cR, ofBits_one, ofBits_1024, Ideal.sqrt_coe, if_neg (by norm_num), sqrt_1024,
    Ideal.div_coe (by norm_num : (32 : ℝ) ≠ 0), ← EReal.coe_mul, one_mul]

/-! ### The two heads -/

/-- With every input real, the head that divides after combining equals the head that divides before. -/
theorem head_eq (x : A3) (Wq : A2) (bq : A1) (Wk : A2) (bk : A1) (Wv : A2) (bv : A1)
    (hx : ∀ b s e, ∃ r : ℝ, x b s e = (r : EReal)) (hWq : ∀ o e, ∃ r : ℝ, Wq o e = (r : EReal)) (hbq : ∀ o, ∃ r : ℝ, bq o = (r : EReal))
    (hWk : ∀ o e, ∃ r : ℝ, Wk o e = (r : EReal)) (hbk : ∀ o, ∃ r : ℝ, bk o = (r : EReal))
    (hWv : ∀ o e, ∃ r : ℝ, Wv o e = (r : EReal)) (hbv : ∀ o, ∃ r : ℝ, bv o = (r : EReal)) :
    headAfter x Wq bq Wk bk Wv bv cK lo = headBefore x Wq bq Wk bk Wv bv cR lo := by
  funext b s d
  rw [headAfter, headBefore, cR_eq_cK, lo_eq_bot]
  -- the logits of this query row are reals
  have hz : ∀ t, ∃ r : ℝ, scores x Wq bq Wk bk cK b s t = (r : EReal) := fun t =>
    logit_real _ _ _ (lin_real _ _ _ (hx b s) hWq hbq) (fun t' => lin_real _ _ _ (hx b t') hWk hbk)
      ⟨_, cK_eq⟩ t
  -- the values of this feature are reals
  have hv : ∀ t, ∃ r : ℝ, values x Wv bv b d t = (r : EReal) := fun t =>
    lin_real _ _ _ (hx b t) hWv hbv d
  choose z hz using hz
  choose v hv using hv
  rw [show scores x Wq bq Wk bk cK b s = fun t => (z t : EReal) from funext hz,
    show values x Wv bv b d = fun t => (v t : EReal) from funext hv]
  exact mixAfter_eq_mixBefore z v

end Cert.Attn

end
-- ==== Proof.Finite.lean ====
/-
  From the certificate's precondition to "every input entry is a real number".

  The precondition is a conjunction of seven blocks, one per input array: the absolute value of every entry is
  compared (strictly below) with the f32 pattern of plus infinity, and the comparison words are folded by "and" over
  every axis, from the word 1.  The conjunction being 1 makes every block 1; a block being 1 makes every comparison
  word 1; a comparison word being 1 says |x| < +infinity for that entry x, and an extended real whose absolute value
  is below +infinity is neither infinity: it is a real number.
-/
import proofs.«123544_j5239860101728_2_alg».proof.Pre_finite_inputs
import Idealize.ShloMosaic.PureOps.Ideal
import Idealize.ShloMosaic.Lib.ReduceAll
import Idealize.ShloMosaic.Lib.ValueIdx

noncomputable section

namespace Cert.Attn

open Idealize.ShloMosaic

/-! Auxiliary facts: the pattern of plus infinity, the element fact, and one block at any shape. -/
namespace Finite

/-- The rank-0 shape has one index. -/
theorem subsingleton_scalarIdx : Subsingleton Cert.Pre_finite_inputs.S_.Idx :=
  ⟨fun a b => funext fun d => d.elim0⟩

/-- The f32 pattern 0x7F800000 (sign 0, exponent all ones, fraction 0) denotes plus infinity. -/
theorem posInf_bits : Ideal.ofBits .f32 0x7F800000#32 = (⊤ : EReal) := by
  simp [Ideal.ofBits, Ideal.ieee]

/-- An extended real whose absolute value `max x (-x)` is strictly below plus infinity is a real number:
    at minus infinity the negation is plus infinity, at plus infinity the entry itself is. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A one-bit word made from a truth value is 1 exactly when the truth value is true. -/
theorem ofBool_eq_one (b : Bool) : BitVec.ofBool b = 1#1 ↔ b = true := by cases b <;> decide

/-- The element fact: the comparison word "|x| strictly below the pattern of plus infinity" being 1 makes x real. -/
theorem real_of_cmp (x : EReal)
    (h : Ideal.cmp .olt (max x (-x)) (Ideal.ofBits .f32 0x7F800000#32) = 1#1) : ∃ r : ℝ, x = (r : EReal) := by
  unfold Ideal.cmp at h
  rw [ofBool_eq_one] at h
  have h' : max x (-x) < Ideal.ofBits .f32 0x7F800000#32 := of_decide_eq_true h
  rw [posInf_bits] at h'
  exact real_of_abs_lt_top x h'

/-- One block of the precondition, at any shape: if the fold by "and", over every axis, of the comparison words
    "|x i| strictly below plus infinity" is 1, then every entry of x is a real number. -/
theorem block_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant Cert.Pre_finite_inputs.S_ .f32 0x7F800000#32)))
          (constantI Cert.Pre_finite_inputs.S_ 1 1#1) hr hu j = 1#1)
    (i : s.Idx) : ∃ r : ℝ, x i = (r : EReal) :=
  haveI := subsingleton_scalarIdx
  real_of_cmp (x i) (Host.reduce_andi_all _ _ hr hu j e i)

end Finite

open Finite in
/-- The precondition being 1 at its one index makes every entry of each of the seven input arrays a real number:
    the conjunction splits into its seven blocks, and each block is read back entry by entry. -/
theorem finite_of_pre [Cert.Pre_finite_inputs.Facts]
    (a0 : FVec Ideal Cert.Pre_finite_inputs.S16x2048x1024 .f32) (a1 : FVec Ideal Cert.Pre_finite_inputs.S1024x1024 .f32) (a2 : FVec Ideal Cert.Pre_finite_inputs.S1024 .f32)
    (a3 : FVec Ideal Cert.Pre_finite_inputs.S1024x1024 .f32) (a4 : FVec Ideal Cert.Pre_finite_inputs.S1024 .f32)
    (a5 : FVec Ideal Cert.Pre_finite_inputs.S1024x1024 .f32) (a6 : FVec Ideal Cert.Pre_finite_inputs.S1024 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have h' := congrFun h ValueIdx.ix0
  dsimp only [Cert.Pre_finite_inputs.fn, Cert.Pre_finite_inputs.fn_part1, andi] at h'
  simp only [IntOp.andi_eq_one] at h'
  obtain ⟨⟨⟨⟨⟨⟨h0, h1⟩, h2⟩, h3⟩, h4⟩, h5⟩, h6⟩ := h'
  exact ⟨block_real a0 _ _ _ _ h0, block_real a1 _ _ _ _ h1, block_real a2 _ _ _ _ h2, block_real a3 _ _ _ _ h3,
    block_real a4 _ _ _ _ h4, block_real a5 _ _ _ _ h5, block_real a6 _ _ _ _ h6⟩

end Cert.Attn

end
-- ==== Proof.lean ====
/-
  Single-head self-attention, computed two ways, gives one array at the exact (extended-real) values.

  Both programs send every token row of x (16 sequences of 2048 tokens, 1024 features) through three affine maps
  (queries, keys, values: a row against the rows of a weight matrix, plus a bias), score each query row against the
  2048 key rows of its sequence, scale the scores by 1/32, turn each row of scores into positive weights
  exp (z t - max z), and combine the value rows with those weights, divided by the total weight.

  One program does this in two tiled calls over a flattened token axis — the three affine maps block of rows by block
  of rows, then per (sequence, block of 512 queries) the weights, the combination and LAST the division by the total
  weight — with the scale written as the literal 0.03125; the other does it whole, divides each weight by the total
  weight FIRST, and writes the scale as one over the square root of 1024.  Tiling, flattening and changes of float
  format do not change an exact value; the square root of 1024 is 32; and, every input being a real number, each total
  weight is a positive real, so dividing the combination by it is dividing each weight by it (`Cert.Attn.head_eq`, the
  one place the precondition is used: on the extended reals the law fails at infinities).

  The three frames: the two tiled programs' are their generated frame theorems; the whole program has no call to a
  kernel, and its frame is its run with the result forgotten.  No operation was rewritten when the tiled program was
  read at the exact values, so that claim is trivial.
-/
import proofs.«123544_j5239860101728_2_alg».proof.Defs
import proofs.«123544_j5239860101728_2_alg».proof.Proof.Gen.Kernel
import proofs.«123544_j5239860101728_2_alg».proof.Proof.Gen.Kernel.Skeleton
import proofs.«123544_j5239860101728_2_alg».proof.Proof.Gen.Kernel.Launch
import proofs.«123544_j5239860101728_2_alg».proof.Proof.Gen.Kernel.Points
import proofs.«123544_j5239860101728_2_alg».proof.Proof.Gen.Kernel.Frame
import proofs.«123544_j5239860101728_2_alg».proof.Proof.Gen.KernelIdeal
import proofs.«123544_j5239860101728_2_alg».proof.Proof.Gen.KernelIdeal.Skeleton
import proofs.«123544_j5239860101728_2_alg».proof.Proof.Gen.KernelIdeal.Launch
import proofs.«123544_j5239860101728_2_alg».proof.Proof.Gen.KernelIdeal.Points
import proofs.«123544_j5239860101728_2_alg».proof.Proof.Gen.KernelIdeal.Frame
import proofs.«123544_j5239860101728_2_alg».proof.Proof.Gen.ReferenceIdeal
import proofs.«123544_j5239860101728_2_alg».proof.Proof.Gen.ReferenceIdeal.Read
import proofs.«123544_j5239860101728_2_alg».proof.Proof.Gen.Pre_finite_inputs
import proofs.«123544_j5239860101728_2_alg».proof.Proof.KValue
import proofs.«123544_j5239860101728_2_alg».proof.Proof.RefSide
import proofs.«123544_j5239860101728_2_alg».proof.Proof.Algebra
import proofs.«123544_j5239860101728_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on real-valued arguments both programs end with the same result array: the tiled one at the
    normalize-after attention of the arguments, the whole one at the normalize-before attention, and the two agree. -/
theorem algebraic : Cert.algebraic_KernelIdeal_ReferenceIdeal := by
  intro m ρ m' ρ' hpre hagree
  refine ⟨_, (θ_run Cert.KernelIdeal.defs _ _).mono (fun r h c => ⟨(h c).1.trans (Cert.Attn.kernel_value m ρ c), (h c).2⟩)
    (Cert.KernelIdeal.Run.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  obtain ⟨a0, a1, a2, a3, a4, a5, a6⟩ := hagree c
  rw [a0, a1, a2, a3, a4, a5, a6]
  obtain ⟨f0, f1, f2, f3, f4, f5, f6⟩ := Cert.Attn.finite_of_pre _ _ _ _ _ _ _ (hpre c)
  funext i
  refine (Cert.Attn.ref_value _ _ _ _ _ _ _ i).trans ?_
  exact (congrFun (congrFun (congrFun (Cert.Attn.head_eq _ _ _ _ _ _ _
    (fun b s e => f0 _) (fun o e => f1 _) (fun o => f2 _) (fun o e => f3 _) (fun o => f4 _) (fun o e => f5 _) (fun o => f6 _))
    (i 0)) (i 1)) (i 2)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
